-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S4x2048x2048 : Shape := ⟨3, ![4, 2048, 2048]⟩
abbrev S512x64 : Shape := ⟨2, ![512, 64]⟩
abbrev S512x512 : Shape := ⟨2, ![512, 512]⟩
abbrev S512 : Shape := ⟨1, ![512]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg8 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg5 : FVec F S512x64 .f32) (main_arg6 : FVec F S512x512 .f32) (main_arg7 : FVec F S512 .f32) (main_arg8 : FVec F S512 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S512x64 .f32 := Host.absf main_arg5
  let main_cst_6 : FVec F S_ .f32 := constant S_ .f32 0x7F800000#32
  let main_v20 : FVec F S512x64 .f32 := broadcastInDim S512x64 ![] bcast_S_S512x64 main_cst_6
  let main_v21 : IVec S512x64 1 := cmpf .olt main_v19 main_v20
  let main_c_7 : IVec S_ 1 := constantI S_ 1 1#1
  let main_v22 : IVec S_ 1 := (fun x v => Host.reduce IntOp.andi x v reducesTo_S512x64_S_d0_1 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_v33

def fn {F : FTy → Type} [FloatOps F] (main_arg0 : FVec F S4x2048x512 .f32) (main_arg1 : FVec F S4x2048x512 .f32) (main_arg2 : FVec F S4x2048x512 .f32) (main_arg3 : IVec S4x2048x2048 32) (main_arg4 : FVec F S512x64 .f32) (main_arg5 : FVec F S512x64 .f32) (main_arg6 : FVec F S512x512 .f32) (main_arg7 : FVec F S512 .f32) (main_arg8 : FVec F S512 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  let main_v9 : FVec F S4x2048x512 .f32 := Host.absf main_arg2
  let main_cst_2 : FVec F S_ .f32 := constant S_ .f32 0x7F800000#32
  let main_v10 : FVec F S4x2048x512 .f32 := broadcastInDim S4x2048x512 ![] bcast_S_S4x2048x512 main_cst_2
  let main_v11 : IVec S4x2048x512 1 := cmpf .olt main_v9 main_v10
  let main_c_3 : IVec S_ 1 := constantI S_ 1 1#1
  let main_v12 : IVec S_ 1 := (fun x v => Host.reduce IntOp.andi x v reducesTo_S4x2048x512_S_d0_1_2 h_S_) main_v11 main_c_3
  let main_v13 : IVec S_ 1 := andi main_v8 main_v12
  let main_v14 : FVec F S512x64 .f32 := Host.absf main_arg4
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg5 main_arg6 main_arg7 main_arg8 main_v13 main_v16
-- ==== Kernel.lean ====
abbrev S4x2048x512 : Shape := ⟨3, ![4, 2048, 512]⟩
abbrev S4x2048x2048 : Shape := ⟨3, ![4, 2048, 2048]⟩
abbrev S512x64 : Shape := ⟨2, ![512, 64]⟩
abbrev S512x512 : Shape := ⟨2, ![512, 512]⟩
abbrev S512 : Shape := ⟨1, ![512]⟩
abbrev S1x256x512 : Shape := ⟨3, ![1, 256, 512]⟩
abbrev S1x2048x512 : Shape := ⟨3, ![1, 2048, 512]⟩
abbrev S1x256x2048 : Shape := ⟨3, ![1, 256, 2048]⟩
abbrev S2048x64 : Shape := ⟨2, ![2048, 64]⟩
abbrev S2048x512 : Shape := ⟨2, ![2048, 512]⟩
abbrev S256x512 : Shape := ⟨2, ![256, 512]⟩
abbrev S256x64 : Shape := ⟨2, ![256, 64]⟩
abbrev S256x2048 : Shape := ⟨2, ![256, 2048]⟩
abbrev S256 : Shape := ⟨1, ![256]⟩
abbrev S256x1 : Shape := ⟨2, ![256, 1]⟩
abbrev S1x512 : Shape := ⟨2, ![1, 512]⟩

abbrev nBuf : Space → Nat
  | .hbm => 16
  | .vmem => 18
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x2048x2048, .i32⟩
  | .hbm, ⟨4, _⟩ => ⟨S512x64, .f32⟩
  | .hbm, ⟨5, _⟩ => ⟨S512x64, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S4x2048x512, .bf16⟩
  | .hbm, ⟨10, _⟩ => ⟨S4x2048x512, .bf16⟩
  | .hbm, ⟨11, _⟩ => ⟨S512x64, .bf16⟩
  | .hbm, ⟨12, _⟩ => ⟨S512x64, .bf16⟩
  | .hbm, ⟨13, _⟩ => ⟨S512x512, .bf16⟩
  | .hbm, ⟨14, _⟩ => ⟨S4x2048x512, .f32⟩
  | .hbm, ⟨15, _⟩ => ⟨S4x2048x2048, .f32⟩
  | .local _ .vmem, ⟨0, _⟩ => ⟨S1x256x512, .bf16⟩
  | .local _ .vmem, ⟨1, _⟩ => ⟨S1x256x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .f32⟩
  | .local _ .vmem, ⟨5, _⟩ => ⟨S1x2048x512, .f32⟩
  | .local _ .vmem, ⟨6, _⟩ => ⟨S1x256x2048, .i32⟩
  | .local _ .vmem, ⟨7, _⟩ => ⟨S1x256x2048, .i32⟩
  | .local _ .vmem, ⟨8, _⟩ => ⟨S512x64, .bf16⟩
  | .local _ .vmem, ⟨9, _⟩ => ⟨S512x64, .bf16⟩
  | .local _ .vmem, ⟨10, _⟩ => ⟨S512x512, .bf16⟩
  | .local _ .vmem, ⟨11, _⟩ => ⟨S512, .f32⟩
  | .local _ .vmem, ⟨12, _⟩ => ⟨S512, .f32⟩
  | .local _ .vmem, ⟨13, _⟩ => ⟨S1x256x512, .f32⟩
  | .local _ .vmem, ⟨14, _⟩ => ⟨S1x256x512, .f32⟩
  | .local _ .vmem, ⟨15, _⟩ => ⟨S1x256x2048, .f32⟩
  | .local _ .vmem, ⟨16, _⟩ => ⟨S1x256x2048, .f32⟩
  | .local _ .vmem, ⟨17, _⟩ => ⟨S2048x64, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c256_i32 : BitVec 32 := 256#32
  let v36 : BitVec 32 := Scalar.muli arg1 c256_i32
  v36
def k0_off1 (i : grid0.Coords) : Fin 3 → Nat :=
  let c0_23 : Index := 0#32
  let arg1 : BitVec 32 := BitVec.ofNat 32 (i 1).val
  let c256_i32 : BitVec 32 := 256#32
  let v36 : BitVec 32 := Scalar.muli arg1 c256_i32
  let v37 : BitVec 32 := v36
  let v38 : Index := Scalar.indexCast v37
  let c0_24 : Index := 0#32
  ![0, v38.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x2048_S1x256x2048 : S256x2048.ShapeCasts S1x256x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S256x512_S256 : S256x512.Reduces [1] S256
  broadcasts_S256x1_S256x512 : S256x1.Broadcasts S256x512
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  shapeCasts_S256x512_S1x256x512 : S256x512.ShapeCasts S1x256x512
  dot_S2048x512_S512x64_S2048x64_1_0_0_1_n_n_wf : DotDims.WF S2048x512 S512x64 S2048x64 [1] [0] [0] [1] [] []
  dot_S256x512_S512x64_S256x64_1_0_0_1_n_n_wf : DotDims.WF S256x512 S512x64 S256x64 [1] [0] [0] [1] [] []
  dot_S256x64_S2048x64_S256x2048_1_1_0_0_n_n_wf : DotDims.WF S256x64 S2048x64 S256x2048 [1] [1] [0] [0] [] []
  dot_S256x2048_S2048x512_S256x512_1_0_0_1_n_n_wf : DotDims.WF S256x2048 S2048x512 S256x512 [1] [0] [0] [1] [] []
  dot_S256x512_S512x512_S256x512_1_0_0_1_n_n_wf : DotDims.WF S256x512 S512x512 S256x512 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x512.size a ≤ S1x2048x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S4x2048x512.size a
  hwx0_0 : ∀ i : grid0.Coords, EltTy.bits .bf16 = 32 ∨ (Rect.block (s := S4x2048x512) S1x256x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S4x2048x512.size a
  hwx0_1 : ∀ i : grid0.Coords, EltTy.bits .bf16 = 32 ∨ (Rect.block (s := S4x2048x512) S1x2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S4x2048x512.size a
  hwx0_2 : ∀ i : grid0.Coords, EltTy.bits .f32 = 32 ∨ (Rect.block (s := S4x2048x512) S1x2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S4x2048x2048.size a
  hwx0_3 : ∀ i : grid0.Coords, EltTy.bits .i32 = 32 ∨ (Rect.block (s := S4x2048x2048) S1x256x2048.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S512x64.size a
  hwx0_4 : ∀ i : grid0.Coords, EltTy.bits .bf16 = 32 ∨ (Rect.block (s := S512x64) S512x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S512x64.size a
  hwx0_5 : ∀ i : grid0.Coords, EltTy.bits .bf16 = 32 ∨ (Rect.block (s := S512x64) S512x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x512.size a ≤ S4x2048x512.size a
  hwx0_9 : ∀ i : grid0.Coords, EltTy.bits .f32 = 32 ∨ (Rect.block (s := S4x2048x512) S1x256x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x2048.size a ≤ S4x2048x2048.size a
  hwx0_10 : ∀ i : grid0.Coords, EltTy.bits .f32 = 32 ∨ (Rect.block (s := S4x2048x2048) S1x256x2048.size (cc0_transform_10 i) (hinb0_10 i)).WholeWords (EltTy.packing .f32)

variable [Facts₀]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S256x512_S512x64_S256x64_1_0_0_1_n_n : DotDims S256x512 S512x64 S256x64 where
  lhsContracting := [1]
  rhsContracting := [0]
  lhsNonContracting := [0]
  rhsNonContracting := [1]
  lhsBatch := []
  rhsBatch := []
  wf := dot_S256x512_S512x64_S256x64_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_v0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5_0) S1x256x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_1) S1x256x2048.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4x2048x512 : Shape := ⟨3, ![4, 2048, 512]⟩
abbrev S4x2048x2048 : Shape := ⟨3, ![4, 2048, 2048]⟩
abbrev S512x64 : Shape := ⟨2, ![512, 64]⟩
abbrev S512x512 : Shape := ⟨2, ![512, 512]⟩
abbrev S512 : Shape := ⟨1, ![512]⟩
abbrev S4x2048x64 : Shape := ⟨3, ![4, 2048, 64]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩

abbrev nBuf : Space → Nat
  | .hbm => 70
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x2048x2048, .i32⟩
  | .hbm, ⟨4, _⟩ => ⟨S512x64, .f32⟩
  | .hbm, ⟨5, _⟩ => ⟨S512x64, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S4x2048x64, .f32⟩
  | .hbm, ⟨10, _⟩ => ⟨S4x2048x64, .f32⟩
  | .hbm, ⟨11, _⟩ => ⟨S_, .f32⟩
  | .hbm, ⟨12, _⟩ => ⟨S4x2048x64, .f32⟩
  | .hbm, ⟨13, _⟩ => ⟨S4x2048x64, .f32⟩
  | .hbm, ⟨14, _⟩ => ⟨S4x2048x2048, .f32⟩
  | .hbm, ⟨15, _⟩ => ⟨S_, .i32⟩
  | .hbm, ⟨16, _⟩ => ⟨S4x2048x2048, .i32⟩
  | .hbm, ⟨17, _⟩ => ⟨S4x2048x2048, .i1⟩
  | .hbm, ⟨18, _⟩ => ⟨S_, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S_, .f32⟩
  | .hbm, ⟨24, _⟩ => ⟨S4x2048, .f32⟩
  | .hbm, ⟨25, _⟩ => ⟨S4x2048, .f32⟩
  | .hbm, ⟨26, _⟩ => ⟨S4x2048x1, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048, .f32⟩
  | .hbm, ⟨32, _⟩ => ⟨S4x2048x1, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048x2048, .f32⟩
  | .hbm, ⟨37, _⟩ => ⟨S4x2048x2048, .f32⟩
  | .hbm, ⟨38, _⟩ => ⟨S4x2048x512, .f32⟩
  | .hbm, ⟨39, _⟩ => ⟨S4x2048x512, .f32⟩
  | .hbm, ⟨40, _⟩ => ⟨S4x2048x512, .f32⟩
  | .hbm, ⟨41, _⟩ => ⟨S_, .f32⟩
  | .hbm, ⟨42, _⟩ => ⟨S4x2048, .f32⟩
  | .hbm, ⟨43, _⟩ => ⟨S4x2048x1, .f32⟩
  | .hbm, ⟨44, _⟩ => ⟨S_, .f32⟩
  | .hbm, ⟨45, _⟩ => ⟨S4x2048x1, .f32⟩
  | .hbm, ⟨46, _⟩ => ⟨S4x2048x1, .f32⟩
  | .hbm, ⟨47, _⟩ => ⟨S4x2048x512, .f32⟩
  | .hbm, ⟨48, _⟩ => ⟨S4x2048x512, .f32⟩
  | .hbm, ⟨49, _⟩ => ⟨S4x2048x512, .f32⟩
  | .hbm, ⟨50, _⟩ => ⟨S_, .f32⟩
  | .hbm, ⟨51, _⟩ => ⟨S4x2048, .f32⟩
  | .hbm, ⟨52, _⟩ => ⟨S4x2048x1, .f32⟩
  | .hbm, ⟨53, _⟩ => ⟨S_, .f32⟩
  | .hbm, ⟨54, _⟩ => ⟨S4x2048x1, .f32⟩
  | .hbm, ⟨55, _⟩ => ⟨S4x2048x1, .f32⟩
  | .hbm, ⟨56, _⟩ => ⟨S4x2048x512, .f32⟩
  | .hbm, ⟨57, _⟩ => ⟨S4x2048x512, .f32⟩
  | .hbm, ⟨58, _⟩ => ⟨S_, .f32⟩
  | .hbm, ⟨59, _⟩ => ⟨S4x2048x1, .f32⟩
  | .hbm, ⟨60, _⟩ => ⟨S4x2048x1, .f32⟩
  | .hbm, ⟨61, _⟩ => ⟨S4x2048x1, .f32⟩
  | .hbm, ⟨62, _⟩ => ⟨S4x2048x512, .f32⟩
  | .hbm, ⟨63, _⟩ => ⟨S4x2048x512, .f32⟩
  | .hbm, ⟨64, _⟩ => ⟨S1x1x512, .f32⟩
  | .hbm, ⟨65, _⟩ => ⟨S4x2048x512, .f32⟩
  | .hbm, ⟨66, _⟩ => ⟨S4x2048x512, .f32⟩
  | .hbm, ⟨67, _⟩ => ⟨S1x1x512, .f32⟩
  | .hbm, ⟨68, _⟩ => ⟨S4x2048x512, .f32⟩
  | .hbm, ⟨69, _⟩ => ⟨S4x2048x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_call0_v0 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]

class Facts₀ : Prop where
  bcast_S_S4x2048x64 : S_.BroadcastsInDim S4x2048x64 (![] : Fin 0 → Fin S4x2048x64.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  reducesTo_S4x2048x512_S4x2048_d2 : S4x2048x512.ReducesTo [2] S4x2048
  bcast_S_S4x2048x1 : S_.BroadcastsInDim S4x2048x1 (![] : Fin 0 → Fin S4x2048x1.rank)
  bcast_S4x2048x1_S4x2048x512_0_1_2 : S4x2048x1.BroadcastsInDim S4x2048x512 (![0, 1, 2] : Fin 3 → Fin S4x2048x512.rank)
  bcast_S512_S1x1x512_2 : S512.BroadcastsInDim S1x1x512 (![2] : Fin 1 → Fin S1x1x512.rank)
  bcast_S1x1x512_S4x2048x512_0_1_2 : S1x1x512.BroadcastsInDim S4x2048x512 (![0, 1, 2] : Fin 3 → Fin S4x2048x512.rank)
  dot_S4x2048x512_S512x64_S4x2048x64_2_0_01_1_n_n_wf : DotDims.WF S4x2048x512 S512x64 S4x2048x64 [2] [0] [0, 1] [1] [] []
  dot_S4x2048x64_S4x2048x64_S4x2048x2048_2_2_1_1_0_0_wf : DotDims.WF S4x2048x64 S4x2048x64 S4x2048x2048 [2] [2] [1] [1] [0] [0]
  dot_S4x2048x2048_S4x2048x512_S4x2048x512_2_1_1_2_0_0_wf : DotDims.WF S4x2048x2048 S4x2048x512 S4x2048x512 [2] [1] [1] [2] [0] [0]
  dot_S4x2048x512_S512x512_S4x2048x512_2_0_01_1_n_n_wf : DotDims.WF S4x2048x512 S512x512 S4x2048x512 [2] [0] [0, 1] [1] [] []

variable [Facts₀]

def dot_S4x2048x512_S512x64_S4x2048x64_2_0_01_1_n_n : DotDims S4x2048x512 S512x64 S4x2048x64 where
  lhsContracting := [2]
  rhsContracting := [0]
  lhsNonContracting := [0, 1]
  rhsNonContracting := [1]
  lhsBatch := []
  rhsBatch := []
  wf := dot_S4x2048x512_S512x64_S4x2048x64_2_0_01_1_n_n_wf
def dot_S4x2048x64_S4x2048x64_S4x2048x2048_2_2_1_1_0_0 : DotDims S4x2048x64 S4x2048x64 S4x2048x2048 where
  lhsContracting := [2]
  rhsContracting := [2]
  lhsNonContracting := [1]
  rhsNonContracting := [1]
  lhsBatch := [0]
  rhsBatch := [0]
  wf := dot_S4x2048x64_S4x2048x64_S4x2048x2048_2_2_1_1_0_0_wf
def dot_S4x2048x2048_S4x2048x512_S4x2048x512_2_1_1_2_0_0 : DotDims S4x2048x2048 S4x2048x512 S4x2048x512 where
  lhsContracting := [2]
  rhsContracting := [1]
  lhsNonContracting := [1]
  rhsNonContracting := [2]
  lhsBatch := [0]
  rhsBatch := [0]
  wf := dot_S4x2048x2048_S4x2048x512_S4x2048x512_2_1_1_2_0_0_wf
def dot_S4x2048x512_S512x512_S4x2048x512_2_0_01_1_n_n : DotDims S4x2048x512 S512x512 S4x2048x512 where
  lhsContracting := [2]
  rhsContracting := [0]
  lhsNonContracting := [0, 1]
  rhsNonContracting := [1]
  lhsBatch := []
  rhsBatch := []
  wf := dot_S4x2048x512_S512x512_S4x2048x512_2_0_01_1_n_n_wf

class Facts : Prop extends Facts₀ where

variable [Facts]
-- ==== Proof.Pieces.lean ====
import proofs.«111095_j31765578121671_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

/-! ## What each control case leaves, as the body's pure terms of the blocks it loads

  At the first query tile of a batch (case A) the body stores the key projection of the batch's key block into the
  scratch and reads it back; at the later tiles (case B) it reads what the scratch already holds. In both cases the
  attention block is one pure term of the query block, the query weights, the scratch and the mask block, and the
  output block one pure term of those, the value block, the value rows of this tile, the linear weights, the gain and
  the bias. -/

/-- The value rows of this query tile: rows `256·i₁ … 256·i₁ + 255` of the batch's value block. -/
abbrev vrows (i : grid0.Coords) (x2 : Vec F S1x2048x512 .f32) : Vec F S1x256x512 .f32 :=
  View.ld x2 (Rect.unit (s := S1x2048x512) (k0_off1 i) S1x256x512.size (k0_off1_inb i))

theorem sout_A (c : Dev nD) (i : grid0.Coords) (a2 : Memref sig .tc .vmem S1x256x512 .bf16) (h2 : a2.IsWhole) (a3 : Memref sig .tc .vmem S1x2048x512 .bf16) (h3 : a3.IsWhole) (a4 : Memref sig .tc .vmem S1x2048x512 .f32) (h4 : a4.IsWhole) (a5 : Memref sig .tc .vmem S1x256x2048 .i32) (h5 : a5.IsWhole) (a6 : Memref sig .tc .vmem S512x64 .bf16) (h6 : a6.IsWhole) (a7 : Memref sig .tc .vmem S512x64 .bf16) (h7 : a7.IsWhole) (a8 : Memref sig .tc .vmem S512x512 .bf16) (h8 : a8.IsWhole) (a9 : Memref sig .tc .vmem S512 .f32) (h9 : a9.IsWhole) (a10 : Memref sig .tc .vmem S512 .f32) (h10 : a10.IsWhole) (a11 : Memref sig .tc .vmem S1x256x512 .f32) (h11 : a11.IsWhole) (a12 : Memref sig .tc .vmem S1x256x2048 .f32) (h12 : a12.IsWhole) (a13 : Memref sig .tc .vmem S2048x64 .bf16) (h13 : a13.IsWhole) (hc : cond0_0 i) (x0 : Vec F S1x256x512 .bf16) (x1 : Vec F S1x2048x512 .bf16) (x2 : Vec F S1x2048x512 .f32) (x3 : Vec F S1x256x2048 .i32) (x4 : Vec F S512x64 .bf16) (x5 : Vec F S512x64 .bf16) (x6 : Vec F S512x512 .bf16) (x7 : Vec F S512 .f32) (x8 : Vec F S512 .f32) :
    sout0_A_0 c i a2 h2 a3 h3 a4 h4 a5 h5 a6 h6 a7 h7 a8 h8 a9 h9 a10 h10 a11 h11 a12 h12 a13 h13 hc x0 x1 x2 x3 x4 x5 x6 x7 x8 = k0_pay2 x1 x5 := by
  unfold sout0_A_0
  rw [View.read_writes_eq_canon _ _ _ (scover0_A_0 c i a2 h2 a3 h3 a4 h4 a5 h5 a6 h6 a7 h7 a8 h8 a9 h9 a10 h10 a11 h11 a12 h12 a13 h13 hc x0 x1 x2 x3 x4 x5 x6 x7 x8)]
  unfold kernelRun0_A
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h13.read_unread, View.ld_unit_zero (S := S1x2048x512) hz3, View.ld_unit_zero (S := S1x256x512) hz3, View.ld_unit_zero (S := S1x256x2048) hz3, View.ld_unit_zero (S := S512x64) hz2, View.ld_unit_zero (S := S512x512) hz2, View.ld_unit_zero (S := S2048x64) hz2, View.ld_unit_zero (S := S512) hz1]

theorem out_A_10 (c : Dev nD) (i : grid0.Coords) (a2 : Memref sig .tc .vmem S1x256x512 .bf16) (h2 : a2.IsWhole) (a3 : Memref sig .tc .vmem S1x2048x512 .bf16) (h3 : a3.IsWhole) (a4 : Memref sig .tc .vmem S1x2048x512 .f32) (h4 : a4.IsWhole) (a5 : Memref sig .tc .vmem S1x256x2048 .i32) (h5 : a5.IsWhole) (a6 : Memref sig .tc .vmem S512x64 .bf16) (h6 : a6.IsWhole) (a7 : Memref sig .tc .vmem S512x64 .bf16) (h7 : a7.IsWhole) (a8 : Memref sig .tc .vmem S512x512 .bf16) (h8 : a8.IsWhole) (a9 : Memref sig .tc .vmem S512 .f32) (h9 : a9.IsWhole) (a10 : Memref sig .tc .vmem S512 .f32) (h10 : a10.IsWhole) (a11 : Memref sig .tc .vmem S1x256x512 .f32) (h11 : a11.IsWhole) (a12 : Memref sig .tc .vmem S1x256x2048 .f32) (h12 : a12.IsWhole) (a13 : Memref sig .tc .vmem S2048x64 .bf16) (h13 : a13.IsWhole) (hc : cond0_0 i) (x0 : Vec F S1x256x512 .bf16) (x1 : Vec F S1x2048x512 .bf16) (x2 : Vec F S1x2048x512 .f32) (x3 : Vec F S1x256x2048 .i32) (x4 : Vec F S512x64 .bf16) (x5 : Vec F S512x64 .bf16) (x6 : Vec F S512x512 .bf16) (x7 : Vec F S512 .f32) (x8 : Vec F S512 .f32) :
    out0_A_10 c i a2 h2 a3 h3 a4 h4 a5 h5 a6 h6 a7 h7 a8 h8 a9 h9 a10 h10 a11 h11 a12 h12 a13 h13 hc x0 x1 x2 x3 x4 x5 x6 x7 x8 = k0_pay4 x0 x4 (k0_pay2 x1 x5) x3 := by
  unfold out0_A_10
  rw [View.read_writes_eq_canon _ _ _ (cover0_A_10 c i a2 h2 a3 h3 a4 h4 a5 h5 a6 h6 a7 h7 a8 h8 a9 h9 a10 h10 a11 h11 a12 h12 a13 h13 hc x0 x1 x2 x3 x4 x5 x6 x7 x8)]
  unfold kernelRun0_A
  dsimp only
  sl_unfold_words
  rw [View.canon_unit_zero hz3, View.readCov_unit_zero (S := S2048x64) _ hz2]
  simp only [View.readAt_eq_ld, h2.read_unread, h3.read_unread, h4.read_unread, h5.read_unread, h6.read_unread, h7.read_unread, h8.read_unread, h9.read_unread, h10.read_unread, h13.read_unread, View.ld_unit_zero (S := S1x2048x512) hz3, View.ld_unit_zero (S := S1x256x512) hz3, View.ld_unit_zero (S := S1x256x2048) hz3, View.ld_unit_zero (S := S512x64) hz2, View.ld_unit_zero (S := S512x512) hz2, View.ld_unit_zero (S := S2048x64) hz2, View.ld_unit_zero (S := S512) hz1]

theorem out_A_9 (c : Dev nD) (i : grid0.Coords) (a2 : Memref sig .tc .vmem S1x256x512 .bf16) (h2 : a2.IsWhole) (a3 : Memref sig .tc .vmem S1x2048x512 .bf16) (h3 : a3.IsWhole) (a4 : Memref sig .tc .vmem S1x2048x512 .f32) (h4 : a4.IsWhole) (a5 : Memref sig .tc .vmem S1x256x2048 .i32) (h5 : a5.IsWhole) (a6 : Memref sig .tc .vmem S512x64 .bf16) (h6 : a6.IsWhole) (a7 : Memref sig .tc .vmem S512x64 .bf16) (h7 : a7.IsWhole) (a8 : Memref sig .tc .vmem S512x512 .bf16) (h8 : a8.IsWhole) (a9 : Memref sig .tc .vmem S512 .f32) (h9 : a9.IsWhole) (a10 : Memref sig .tc .vmem S512 .f32) (h10 : a10.IsWhole) (a11 : Memref sig .tc .vmem S1x256x512 .f32) (h11 : a11.IsWhole) (a12 : Memref sig .tc .vmem S1x256x2048 .f32) (h12 : a12.IsWhole) (a13 : Memref sig .tc .vmem S2048x64 .bf16) (h13 : a13.IsWhole) (hc : cond0_0 i) (x0 : Vec F S1x256x512 .bf16) (x1 : Vec F S1x2048x512 .bf16) (x2 : Vec F S1x2048x512 .f32) (x3 : Vec F S1x256x2048 .i32) (x4 : Vec F S512x64 .bf16) (x5 : Vec F S512x64 .bf16) (x6 : Vec F S512x512 .bf16) (x7 : Vec F S512 .f32) (x8 : Vec F S512 .f32) :
    out0_A_9 c i a2 h2 a3 h3 a4 h4 a5 h5 a6 h6 a7 h7 a8 h8 a9 h9 a10 h10 a11 h11 a12 h12 a13 h13 hc x0 x1 x2 x3 x4 x5 x6 x7 x8 = k0_pay1 (k0_pay6 (k0_pay5 x0 x4 (k0_pay2 x1 x5) x3) x2 (vrows i x2) x6 x7 x8) := by
  unfold out0_A_9
  rw [View.read_writes_eq_canon _ _ _ (cover0_A_9 c i a2 h2 a3 h3 a4 h4 a5 h5 a6 h6 a7 h7 a8 h8 a9 h9 a10 h10 a11 h11 a12 h12 a13 h13 hc x0 x1 x2 x3 x4 x5 x6 x7 x8)]
  unfold kernelRun0_A
  dsimp only
  sl_unfold_words
  rw [View.canon_unit_zero hz3, View.readCov_unit_zero (S := S2048x64) _ hz2]
  simp only [View.readAt_eq_ld, h2.read_unread, h3.read_unread, h4.read_unread, h5.read_unread, h6.read_unread, h7.read_unread, h8.read_unread, h9.read_unread, h10.read_unread, h13.read_unread, View.ld_unit_zero (S := S1x2048x512) hz3, View.ld_unit_zero (S := S1x256x512) hz3, View.ld_unit_zero (S := S1x256x2048) hz3, View.ld_unit_zero (S := S512x64) hz2, View.ld_unit_zero (S := S512x512) hz2, View.ld_unit_zero (S := S2048x64) hz2, View.ld_unit_zero (S := S512) hz1]
  rfl

theorem out_B_10 (c : Dev nD) (i : grid0.Coords) (a2 : Memref sig .tc .vmem S1x256x512 .bf16) (h2 : a2.IsWhole) (a3 : Memref sig .tc .vmem S1x2048x512 .bf16) (h3 : a3.IsWhole) (a4 : Memref sig .tc .vmem S1x2048x512 .f32) (h4 : a4.IsWhole) (a5 : Memref sig .tc .vmem S1x256x2048 .i32) (h5 : a5.IsWhole) (a6 : Memref sig .tc .vmem S512x64 .bf16) (h6 : a6.IsWhole) (a7 : Memref sig .tc .vmem S512x64 .bf16) (h7 : a7.IsWhole) (a8 : Memref sig .tc .vmem S512x512 .bf16) (h8 : a8.IsWhole) (a9 : Memref sig .tc .vmem S512 .f32) (h9 : a9.IsWhole) (a10 : Memref sig .tc .vmem S512 .f32) (h10 : a10.IsWhole) (a11 : Memref sig .tc .vmem S1x256x512 .f32) (h11 : a11.IsWhole) (a12 : Memref sig .tc .vmem S1x256x2048 .f32) (h12 : a12.IsWhole) (a13 : Memref sig .tc .vmem S2048x64 .bf16) (h13 : a13.IsWhole) (hc : ¬cond0_0 i) (x0 : Vec F S1x256x512 .bf16) (x1 : Vec F S1x2048x512 .bf16) (x2 : Vec F S1x2048x512 .f32) (x3 : Vec F S1x256x2048 .i32) (x4 : Vec F S512x64 .bf16) (x5 : Vec F S512x64 .bf16) (x6 : Vec F S512x512 .bf16) (x7 : Vec F S512 .f32) (x8 : Vec F S512 .f32) (xs0 : Vec F S2048x64 .bf16) :
    out0_B_10 c i a2 h2 a3 h3 a4 h4 a5 h5 a6 h6 a7 h7 a8 h8 a9 h9 a10 h10 a11 h11 a12 h12 a13 h13 hc x0 x1 x2 x3 x4 x5 x6 x7 x8 xs0 = k0_pay4 x0 x4 xs0 x3 := by
  unfold out0_B_10
  rw [View.read_writes_eq_canon _ _ _ (cover0_B_10 c i a2 h2 a3 h3 a4 h4 a5 h5 a6 h6 a7 h7 a8 h8 a9 h9 a10 h10 a11 h11 a12 h12 a13 h13 hc x0 x1 x2 x3 x4 x5 x6 x7 x8 xs0)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, h13.read_unread, View.ld_unit_zero (S := S1x2048x512) hz3, View.ld_unit_zero (S := S1x256x512) hz3, View.ld_unit_zero (S := S1x256x2048) hz3, View.ld_unit_zero (S := S512x64) hz2, View.ld_unit_zero (S := S512x512) hz2, View.ld_unit_zero (S := S2048x64) hz2, View.ld_unit_zero (S := S512) hz1]

theorem out_B_9 (c : Dev nD) (i : grid0.Coords) (a2 : Memref sig .tc .vmem S1x256x512 .bf16) (h2 : a2.IsWhole) (a3 : Memref sig .tc .vmem S1x2048x512 .bf16) (h3 : a3.IsWhole) (a4 : Memref sig .tc .vmem S1x2048x512 .f32) (h4 : a4.IsWhole) (a5 : Memref sig .tc .vmem S1x256x2048 .i32) (h5 : a5.IsWhole) (a6 : Memref sig .tc .vmem S512x64 .bf16) (h6 : a6.IsWhole) (a7 : Memref sig .tc .vmem S512x64 .bf16) (h7 : a7.IsWhole) (a8 : Memref sig .tc .vmem S512x512 .bf16) (h8 : a8.IsWhole) (a9 : Memref sig .tc .vmem S512 .f32) (h9 : a9.IsWhole) (a10 : Memref sig .tc .vmem S512 .f32) (h10 : a10.IsWhole) (a11 : Memref sig .tc .vmem S1x256x512 .f32) (h11 : a11.IsWhole) (a12 : Memref sig .tc .vmem S1x256x2048 .f32) (h12 : a12.IsWhole) (a13 : Memref sig .tc .vmem S2048x64 .bf16) (h13 : a13.IsWhole) (hc : ¬cond0_0 i) (x0 : Vec F S1x256x512 .bf16) (x1 : Vec F S1x2048x512 .bf16) (x2 : Vec F S1x2048x512 .f32) (x3 : Vec F S1x256x2048 .i32) (x4 : Vec F S512x64 .bf16) (x5 : Vec F S512x64 .bf16) (x6 : Vec F S512x512 .bf16) (x7 : Vec F S512 .f32) (x8 : Vec F S512 .f32) (xs0 : Vec F S2048x64 .bf16) :
    out0_B_9 c i a2 h2 a3 h3 a4 h4 a5 h5 a6 h6 a7 h7 a8 h8 a9 h9 a10 h10 a11 h11 a12 h12 a13 h13 hc x0 x1 x2 x3 x4 x5 x6 x7 x8 xs0 = k0_pay1 (k0_pay6 (k0_pay5 x0 x4 xs0 x3) x2 (vrows i x2) x6 x7 x8) := by
  unfold out0_B_9
  rw [View.read_writes_eq_canon _ _ _ (cover0_B_9 c i a2 h2 a3 h3 a4 h4 a5 h5 a6 h6 a7 h7 a8 h8 a9 h9 a10 h10 a11 h11 a12 h12 a13 h13 hc x0 x1 x2 x3 x4 x5 x6 x7 x8 xs0)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, h13.read_unread, View.ld_unit_zero (S := S1x2048x512) hz3, View.ld_unit_zero (S := S1x256x512) hz3, View.ld_unit_zero (S := S1x256x2048) hz3, View.ld_unit_zero (S := S512x64) hz2, View.ld_unit_zero (S := S512x512) hz2, View.ld_unit_zero (S := S2048x64) hz2, View.ld_unit_zero (S := S512) hz1]
  rfl

end Cert.KernelIdeal.Pieces

end
-- ==== Proof.TileOps.lean ====
/-
  The body's vector operations read at an index of a tile, over the extended reals: a matrix product into a zero
  accumulator as the sum over its contracted coordinate; a row reduction as a sum (or a fold of `max`) over the row;
  the keep-dimension casts and broadcasts `[a] → [a, 1] → [a, b]` as reading the row's entry.
-/
import proofs.«111095_j31765578121671_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.TileOps

open Cert.KernelIdeal Cert.KernelIdeal.Gen Idealize.ShloMosaic Idealize.ShloMosaic.ValueIdx

variable {α : Type}

/-- A vector of `a` entries cast to one column, read at `(p, u)`, is entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- One column broadcast over `b` columns, read at `(p, c)`, is the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row index `p` with the column coordinate put back is `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A row sum from the additive neutral, at row `p`: the sum of the row. -/
theorem rowSum_keep_apply {m n : ℕ} (s : FVec Ideal ⟨2, ![m, n]⟩ .f32) (acc : BitVec (FTy.bits .f32))
    (h : (⟨2, ![m, n]⟩ : Shape).Reduces [1] (⟨1, ![m]⟩ : Shape))
    (hφ : FKind.Formats .f32) (hacc : acc = FKind.add.neutral .f32 hφ)
    (p : Fin m) : multiReduction .add [1] ⟨1, ![m]⟩ s acc h hφ hacc (ix1 p) = ∑ k : Fin n, s (ix2 p k) := by
  rw [Ideal.multiReduction_add_single]
  exact Finset.sum_congr rfl fun k _ => congrArg s (lift_row h p k)

/-- A row maximum from the accumulator's value, at row `p`: the fold of `max` over the row. -/
theorem rowMax_apply {m n : ℕ} (s : FVec Ideal ⟨2, ![m, n]⟩ .f32) (acc : BitVec (FTy.bits .f32))
    (h : (⟨2, ![m, n]⟩ : Shape).Reduces [1] (⟨1, ![m]⟩ : Shape))
    (hφ : FKind.Formats .f32) (hacc : acc = FKind.maximumf.neutral .f32 hφ)
    (p : Fin m) : multiReduction .maximumf [1] ⟨1, ![m]⟩ s acc h hφ hacc (ix1 p)
      = (Finset.univ : Finset (Fin n)).fold max (Ideal.ofBits .f32 acc) (fun k => s (ix2 p k)) := by
  rw [Ideal.multiReduction_maximumf_single]
  exact congrArg (fun f => Finset.fold max (Ideal.ofBits .f32 acc) f (Finset.univ : Finset (Fin n)))
    (funext fun k => congrArg s (lift_row h p k))

theorem mm_kproj_l0 (j : S2048x64.Idx) (k : dot_S2048x512_S512x64_S2048x64_1_0_0_1_n_n.contr.Idx) : (dot_S2048x512_S512x64_S2048x64_1_0_0_1_n_n.lhsIdx j k 0).val = (j 0).val := by
  unfold DotDims.lhsIdx
  rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
  rfl
theorem mm_kproj_r1 (j : S2048x64.Idx) (k : dot_S2048x512_S512x64_S2048x64_1_0_0_1_n_n.contr.Idx) : (dot_S2048x512_S512x64_S2048x64_1_0_0_1_n_n.rhsIdx j k 1).val = (j 1).val := by
  unfold DotDims.rhsIdx
  rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
  rfl
theorem mm_kproj_l1 (j : S2048x64.Idx) (k : dot_S2048x512_S512x64_S2048x64_1_0_0_1_n_n.contr.Idx) : (dot_S2048x512_S512x64_S2048x64_1_0_0_1_n_n.lhsIdx j k 1).val = (k ⟨0, by decide⟩).val :=
  dot_S2048x512_S512x64_S2048x64_1_0_0_1_n_n.lhsIdx_val_of_single rfl j k
theorem mm_kproj_r0 (j : S2048x64.Idx) (k : dot_S2048x512_S512x64_S2048x64_1_0_0_1_n_n.contr.Idx) : (dot_S2048x512_S512x64_S2048x64_1_0_0_1_n_n.rhsIdx j k 0).val = (k ⟨0, by decide⟩).val :=
  dot_S2048x512_S512x64_S2048x64_1_0_0_1_n_n.rhsIdx_val_of_single rfl j k

/-- The matrix product `kproj` into a zero accumulator, at row `p` and column `q`: the sum over the contracted coordinate. -/
theorem mm_kproj {φ₁ φ₂ : FTy} (l : FVec Ideal S2048x512 φ₁) (r : FVec Ideal S512x64 φ₂) (p : Fin 2048) (q : Fin 64) :
    matmul dot_S2048x512_S512x64_S2048x64_1_0_0_1_n_n none l r (constant S2048x64 .f32 0x00000000#32) (ix2 p q) = ∑ k : Fin 512, l (ix2 p k) * r (ix2 k q) := by
  show FloatOps.matmul dot_S2048x512_S512x64_S2048x64_1_0_0_1_n_n none l r (constant S2048x64 .f32 0x00000000#32) (ix2 p q) = _
  rw [Ideal.matmul_constant_zero_apply, ← Equiv.sum_comp (contrEquiv1 dot_S2048x512_S512x64_S2048x64_1_0_0_1_n_n 512 rfl rfl).symm]
  refine Finset.sum_congr rfl fun k _ => ?_
  have hk := contrEquiv1_symm_val dot_S2048x512_S512x64_S2048x64_1_0_0_1_n_n 512 rfl rfl k
  have el : dot_S2048x512_S512x64_S2048x64_1_0_0_1_n_n.lhsIdx (ix2 p q) ((contrEquiv1 dot_S2048x512_S512x64_S2048x64_1_0_0_1_n_n 512 rfl rfl).symm k) = ix2 p k := funext fun a => Fin.ext (by
    match a with
    | ⟨0, _⟩ => exact mm_kproj_l0 _ _
    | ⟨1, _⟩ => exact (mm_kproj_l1 _ _).trans hk)
  have er : dot_S2048x512_S512x64_S2048x64_1_0_0_1_n_n.rhsIdx (ix2 p q) ((contrEquiv1 dot_S2048x512_S512x64_S2048x64_1_0_0_1_n_n 512 rfl rfl).symm k) = ix2 k q := funext fun a => Fin.ext (by
    match a with
    | ⟨0, _⟩ => exact (mm_kproj_r0 _ _).trans hk
    | ⟨1, _⟩ => exact mm_kproj_r1 _ _)
  rw [el, er]

theorem mm_qproj_l0 (j : S256x64.Idx) (k : dot_S256x512_S512x64_S256x64_1_0_0_1_n_n.contr.Idx) : (dot_S256x512_S512x64_S256x64_1_0_0_1_n_n.lhsIdx j k 0).val = (j 0).val := by
  unfold DotDims.lhsIdx
  rw [dif_neg (show ¬(0 : Fin S256x512.rank) ∈ dot_S256x512_S512x64_S256x64_1_0_0_1_n_n.lhsBatch by decide), dif_pos (show (0 : Fin S256x512.rank) ∈ dot_S256x512_S512x64_S256x64_1_0_0_1_n_n.lhsNonContracting by decide)]
  rfl
theorem mm_qproj_r1 (j : S256x64.Idx) (k : dot_S256x512_S512x64_S256x64_1_0_0_1_n_n.contr.Idx) : (dot_S256x512_S512x64_S256x64_1_0_0_1_n_n.rhsIdx j k 1).val = (j 1).val := by
  unfold DotDims.rhsIdx
  rw [dif_neg (show ¬(1 : Fin S512x64.rank) ∈ dot_S256x512_S512x64_S256x64_1_0_0_1_n_n.rhsBatch by decide), dif_pos (show (1 : Fin S512x64.rank) ∈ dot_S256x512_S512x64_S256x64_1_0_0_1_n_n.rhsNonContracting by decide)]
  rfl
theorem mm_qproj_l1 (j : S256x64.Idx) (k : dot_S256x512_S512x64_S256x64_1_0_0_1_n_n.contr.Idx) : (dot_S256x512_S512x64_S256x64_1_0_0_1_n_n.lhsIdx j k 1).val = (k ⟨0, by decide⟩).val :=
  dot_S256x512_S512x64_S256x64_1_0_0_1_n_n.lhsIdx_val_of_single rfl j k
theorem mm_qproj_r0 (j : S256x64.Idx) (k : dot_S256x512_S512x64_S256x64_1_0_0_1_n_n.contr.Idx) : (dot_S256x512_S512x64_S256x64_1_0_0_1_n_n.rhsIdx j k 0).val = (k ⟨0, by decide⟩).val :=
  dot_S256x512_S512x64_S256x64_1_0_0_1_n_n.rhsIdx_val_of_single rfl j k

/-- The matrix product `qproj` into a zero accumulator, at row `p` and column `q`: the sum over the contracted coordinate. -/
theorem mm_qproj {φ₁ φ₂ : FTy} (l : FVec Ideal S256x512 φ₁) (r : FVec Ideal S512x64 φ₂) (p : Fin 256) (q : Fin 64) :
    matmul dot_S256x512_S512x64_S256x64_1_0_0_1_n_n none l r (constant S256x64 .f32 0x00000000#32) (ix2 p q) = ∑ k : Fin 512, l (ix2 p k) * r (ix2 k q) := by
  show FloatOps.matmul dot_S256x512_S512x64_S256x64_1_0_0_1_n_n none l r (constant S256x64 .f32 0x00000000#32) (ix2 p q) = _
  rw [Ideal.matmul_constant_zero_apply, ← Equiv.sum_comp (contrEquiv1 dot_S256x512_S512x64_S256x64_1_0_0_1_n_n 512 rfl rfl).symm]
  refine Finset.sum_congr rfl fun k _ => ?_
  have hk := contrEquiv1_symm_val dot_S256x512_S512x64_S256x64_1_0_0_1_n_n 512 rfl rfl k
  have el : dot_S256x512_S512x64_S256x64_1_0_0_1_n_n.lhsIdx (ix2 p q) ((contrEquiv1 dot_S256x512_S512x64_S256x64_1_0_0_1_n_n 512 rfl rfl).symm k) = ix2 p k := funext fun a => Fin.ext (by
    match a with
    | ⟨0, _⟩ => exact mm_qproj_l0 _ _
    | ⟨1, _⟩ => exact (mm_qproj_l1 _ _).trans hk)
  have er : dot_S256x512_S512x64_S256x64_1_0_0_1_n_n.rhsIdx (ix2 p q) ((contrEquiv1 dot_S256x512_S512x64_S256x64_1_0_0_1_n_n 512 rfl rfl).symm k) = ix2 k q := funext fun a => Fin.ext (by
    match a with
    | ⟨0, _⟩ => exact (mm_qproj_r0 _ _).trans hk
    | ⟨1, _⟩ => exact mm_qproj_r1 _ _)
  rw [el, er]

theorem mm_score_l0 (j : S256x2048.Idx) (k : dot_S256x64_S2048x64_S256x2048_1_1_0_0_n_n.contr.Idx) : (dot_S256x64_S2048x64_S256x2048_1_1_0_0_n_n.lhsIdx j k 0).val = (j 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem mm_score_r0 (j : S256x2048.Idx) (k : dot_S256x64_S2048x64_S256x2048_1_1_0_0_n_n.contr.Idx) : (dot_S256x64_S2048x64_S256x2048_1_1_0_0_n_n.rhsIdx j k 0).val = (j 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem mm_score_l1 (j : S256x2048.Idx) (k : dot_S256x64_S2048x64_S256x2048_1_1_0_0_n_n.contr.Idx) : (dot_S256x64_S2048x64_S256x2048_1_1_0_0_n_n.lhsIdx j k 1).val = (k ⟨0, by decide⟩).val :=
  dot_S256x64_S2048x64_S256x2048_1_1_0_0_n_n.lhsIdx_val_of_single rfl j k
theorem mm_score_r1 (j : S256x2048.Idx) (k : dot_S256x64_S2048x64_S256x2048_1_1_0_0_n_n.contr.Idx) : (dot_S256x64_S2048x64_S256x2048_1_1_0_0_n_n.rhsIdx j k 1).val = (k ⟨0, by decide⟩).val :=
  dot_S256x64_S2048x64_S256x2048_1_1_0_0_n_n.rhsIdx_val_of_single rfl j k

/-- The matrix product `score` into a zero accumulator, at row `p` and column `q`: the sum over the contracted coordinate. -/
theorem mm_score {φ₁ φ₂ : FTy} (l : FVec Ideal S256x64 φ₁) (r : FVec Ideal S2048x64 φ₂) (p : Fin 256) (q : Fin 2048) :
    matmul dot_S256x64_S2048x64_S256x2048_1_1_0_0_n_n none l r (constant S256x2048 .f32 0x00000000#32) (ix2 p q) = ∑ k : Fin 64, l (ix2 p k) * r (ix2 q k) := by
  show FloatOps.matmul dot_S256x64_S2048x64_S256x2048_1_1_0_0_n_n none l r (constant S256x2048 .f32 0x00000000#32) (ix2 p q) = _
  rw [Ideal.matmul_constant_zero_apply, ← Equiv.sum_comp (contrEquiv1 dot_S256x64_S2048x64_S256x2048_1_1_0_0_n_n 64 rfl rfl).symm]
  refine Finset.sum_congr rfl fun k _ => ?_
  have hk := contrEquiv1_symm_val dot_S256x64_S2048x64_S256x2048_1_1_0_0_n_n 64 rfl rfl k
  have el : dot_S256x64_S2048x64_S256x2048_1_1_0_0_n_n.lhsIdx (ix2 p q) ((contrEquiv1 dot_S256x64_S2048x64_S256x2048_1_1_0_0_n_n 64 rfl rfl).symm k) = ix2 p k := funext fun a => Fin.ext (by
    match a with
    | ⟨0, _⟩ => exact mm_score_l0 _ _
    | ⟨1, _⟩ => exact (mm_score_l1 _ _).trans hk)
  have er : dot_S256x64_S2048x64_S256x2048_1_1_0_0_n_n.rhsIdx (ix2 p q) ((contrEquiv1 dot_S256x64_S2048x64_S256x2048_1_1_0_0_n_n 64 rfl rfl).symm k) = ix2 q k := funext fun a => Fin.ext (by
    match a with
    | ⟨1, _⟩ => exact (mm_score_r1 _ _).trans hk
    | ⟨0, _⟩ => exact mm_score_r0 _ _)
  rw [el, er]

theorem mm_mix_l0 (j : S256x512.Idx) (k : dot_S256x2048_S2048x512_S256x512_1_0_0_1_n_n.contr.Idx) : (dot_S256x2048_S2048x512_S256x512_1_0_0_1_n_n.lhsIdx j k 0).val = (j 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
theorem mm_mix_r1 (j : S256x512.Idx) (k : dot_S256x2048_S2048x512_S256x512_1_0_0_1_n_n.contr.Idx) : (dot_S256x2048_S2048x512_S256x512_1_0_0_1_n_n.rhsIdx j k 1).val = (j 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl
theorem mm_mix_l1 (j : S256x512.Idx) (k : dot_S256x2048_S2048x512_S256x512_1_0_0_1_n_n.contr.Idx) : (dot_S256x2048_S2048x512_S256x512_1_0_0_1_n_n.lhsIdx j k 1).val = (k ⟨0, by decide⟩).val :=
  dot_S256x2048_S2048x512_S256x512_1_0_0_1_n_n.lhsIdx_val_of_single rfl j k
theorem mm_mix_r0 (j : S256x512.Idx) (k : dot_S256x2048_S2048x512_S256x512_1_0_0_1_n_n.contr.Idx) : (dot_S256x2048_S2048x512_S256x512_1_0_0_1_n_n.rhsIdx j k 0).val = (k ⟨0, by decide⟩).val :=
  dot_S256x2048_S2048x512_S256x512_1_0_0_1_n_n.rhsIdx_val_of_single rfl j k

/-- The matrix product `mix` into a zero accumulator, at row `p` and column `q`: the sum over the contracted coordinate. -/
theorem mm_mix {φ₁ φ₂ : FTy} (l : FVec Ideal S256x2048 φ₁) (r : FVec Ideal S2048x512 φ₂) (p : Fin 256) (q : Fin 512) :
    matmul dot_S256x2048_S2048x512_S256x512_1_0_0_1_n_n none l r (constant S256x512 .f32 0x00000000#32) (ix2 p q) = ∑ k : Fin 2048, l (ix2 p k) * r (ix2 k q) := by
  show FloatOps.matmul dot_S256x2048_S2048x512_S256x512_1_0_0_1_n_n none l r (constant S256x512 .f32 0x00000000#32) (ix2 p q) = _
  rw [Ideal.matmul_constant_zero_apply, ← Equiv.sum_comp (contrEquiv1 dot_S256x2048_S2048x512_S256x512_1_0_0_1_n_n 2048 rfl rfl).symm]
  refine Finset.sum_congr rfl fun k _ => ?_
  have hk := contrEquiv1_symm_val dot_S256x2048_S2048x512_S256x512_1_0_0_1_n_n 2048 rfl rfl k
  have el : dot_S256x2048_S2048x512_S256x512_1_0_0_1_n_n.lhsIdx (ix2 p q) ((contrEquiv1 dot_S256x2048_S2048x512_S256x512_1_0_0_1_n_n 2048 rfl rfl).symm k) = ix2 p k := funext fun a => Fin.ext (by
    match a with
    | ⟨0, _⟩ => exact mm_mix_l0 _ _
    | ⟨1, _⟩ => exact (mm_mix_l1 _ _).trans hk)
  have er : dot_S256x2048_S2048x512_S256x512_1_0_0_1_n_n.rhsIdx (ix2 p q) ((contrEquiv1 dot_S256x2048_S2048x512_S256x512_1_0_0_1_n_n 2048 rfl rfl).symm k) = ix2 k q := funext fun a => Fin.ext (by
    match a with
    | ⟨0, _⟩ => exact (mm_mix_r0 _ _).trans hk
    | ⟨1, _⟩ => exact mm_mix_r1 _ _)
  rw [el, er]

theorem mm_lin_l0 (j : S256x512.Idx) (k : dot_S256x512_S512x512_S256x512_1_0_0_1_n_n.contr.Idx) : (dot_S256x512_S512x512_S256x512_1_0_0_1_n_n.lhsIdx j k 0).val = (j 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem mm_lin_r1 (j : S256x512.Idx) (k : dot_S256x512_S512x512_S256x512_1_0_0_1_n_n.contr.Idx) : (dot_S256x512_S512x512_S256x512_1_0_0_1_n_n.rhsIdx j k 1).val = (j 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl
theorem mm_lin_l1 (j : S256x512.Idx) (k : dot_S256x512_S512x512_S256x512_1_0_0_1_n_n.contr.Idx) : (dot_S256x512_S512x512_S256x512_1_0_0_1_n_n.lhsIdx j k 1).val = (k ⟨0, by decide⟩).val :=
  dot_S256x512_S512x512_S256x512_1_0_0_1_n_n.lhsIdx_val_of_single rfl j k
theorem mm_lin_r0 (j : S256x512.Idx) (k : dot_S256x512_S512x512_S256x512_1_0_0_1_n_n.contr.Idx) : (dot_S256x512_S512x512_S256x512_1_0_0_1_n_n.rhsIdx j k 0).val = (k ⟨0, by decide⟩).val :=
  dot_S256x512_S512x512_S256x512_1_0_0_1_n_n.rhsIdx_val_of_single rfl j k

/-- The matrix product `lin` into a zero accumulator, at row `p` and column `q`: the sum over the contracted coordinate. -/
theorem mm_lin {φ₁ φ₂ : FTy} (l : FVec Ideal S256x512 φ₁) (r : FVec Ideal S512x512 φ₂) (p : Fin 256) (q : Fin 512) :
    matmul dot_S256x512_S512x512_S256x512_1_0_0_1_n_n none l r (constant S256x512 .f32 0x00000000#32) (ix2 p q) = ∑ k : Fin 512, l (ix2 p k) * r (ix2 k q) := by
  show FloatOps.matmul dot_S256x512_S512x512_S256x512_1_0_0_1_n_n none l r (constant S256x512 .f32 0x00000000#32) (ix2 p q) = _
  rw [Ideal.matmul_constant_zero_apply, ← Equiv.sum_comp (contrEquiv1 dot_S256x512_S512x512_S256x512_1_0_0_1_n_n 512 rfl rfl).symm]
  refine Finset.sum_congr rfl fun k _ => ?_
  have hk := contrEquiv1_symm_val dot_S256x512_S512x512_S256x512_1_0_0_1_n_n 512 rfl rfl k
  have el : dot_S256x512_S512x512_S256x512_1_0_0_1_n_n.lhsIdx (ix2 p q) ((contrEquiv1 dot_S256x512_S512x512_S256x512_1_0_0_1_n_n 512 rfl rfl).symm k) = ix2 p k := funext fun a => Fin.ext (by
    match a with
    | ⟨0, _⟩ => exact mm_lin_l0 _ _
    | ⟨1, _⟩ => exact (mm_lin_l1 _ _).trans hk)
  have er : dot_S256x512_S512x512_S256x512_1_0_0_1_n_n.rhsIdx (ix2 p q) ((contrEquiv1 dot_S256x512_S512x512_S256x512_1_0_0_1_n_n 512 rfl rfl).symm k) = ix2 k q := funext fun a => Fin.ext (by
    match a with
    | ⟨0, _⟩ => exact (mm_lin_r0 _ _).trans hk
    | ⟨1, _⟩ => exact mm_lin_r1 _ _)
  rw [el, er]

end Cert.KernelIdeal.TileOps

end
-- ==== Proof.Spec.lean ====
/-
  Masked single-head attention followed by a residual, a linear layer and a layer norm, written once as
  functions of the argument arrays over the extended reals, index by index.

  For a batch `b`, a query row `i` and a key row `j`:
    score b i j  = ∑ c, (∑ d, q b i d · wq d c) / 8 · (∑ d, k b j d · wk d c)
    masked b i j = −10⁹ where mask b i j = 0, else score b i j
    attn b i j   = exp (masked b i j − max_j' masked b i j') / ∑ j', exp (masked b i j' − max …)
    mix b i d    = (∑ j, attn b i j · v b j d) + v b i d
    lin b i e    = ∑ d, mix b i d · wf d e
    out b i e    = (lin b i e − μ) · rsqrt (σ² + ε) · g e + β e,   μ and σ² the mean and the variance of row lin b i ·
  The float literals (8, −10⁹, −∞, 512, ε) stay the words the programs print: both programs print the same words,
  so none is evaluated.  A row's maximum is the fold of `max` from −∞, a row's sum a `Finset` sum: no order is left.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The words the programs print. -/
abbrev eight : EReal := Ideal.ofBits .f32 0x41000000#32
abbrev negBig : EReal := Ideal.ofBits .f32 0xCE6E6B28#32
abbrev negInf : EReal := Ideal.ofBits .f32 0xFF800000#32
abbrev fiveTwelve : EReal := Ideal.ofBits .f32 0x44000000#32
abbrev eps : EReal := Ideal.ofBits .f32 0x358637BD#32

/-! ## Rows -/

/-- A row's maximum: the fold of `max` from −∞. -/
def rowMax {n : Nat} (s : Fin n → EReal) : EReal := (Finset.univ : Finset (Fin n)).fold max negInf s

/-- The softmax of a row at `j`: the exponential of the entry less the row's maximum, over the sum of those exponentials. -/
def softmaxRow {n : Nat} (s : Fin n → EReal) (j : Fin n) : EReal :=
  Ideal.div (Ideal.exp (s j - rowMax s)) (∑ j' : Fin n, Ideal.exp (s j' - rowMax s))

/-- A row's mean over 512 entries. -/
def rowMean {n : Nat} (o : Fin n → EReal) : EReal := Ideal.div (∑ e : Fin n, o e) fiveTwelve

/-- The layer norm of a row at `e`, with gain `g` and bias `β`. -/
def normRow {n : Nat} (o g β : Fin n → EReal) (e : Fin n) : EReal :=
  (o e - rowMean o) * Ideal.rsqrt (rowMean (fun e' => (o e' - rowMean o) * (o e' - rowMean o)) + eps) * g e + β e

/-! ## The layer, over the argument arrays -/

section Layer

variable (q k v : (⟨3, ![4, 2048, 512]⟩ : Shape).Idx → EReal) (mask : (⟨3, ![4, 2048, 2048]⟩ : Shape).Idx → BitVec 32)
  (wq wk : (⟨2, ![512, 64]⟩ : Shape).Idx → EReal) (wf : (⟨2, ![512, 512]⟩ : Shape).Idx → EReal)
  (g β : (⟨1, ![512]⟩ : Shape).Idx → EReal)

/-- The scaled query projection. -/
def qproj (b : Fin 4) (i : Fin 2048) (c : Fin 64) : EReal :=
  Ideal.div (∑ d : Fin 512, q (ix3 b i d) * wq (ix2 d c)) eight

/-- The key projection. -/
def kproj (b : Fin 4) (j : Fin 2048) (c : Fin 64) : EReal := ∑ d : Fin 512, k (ix3 b j d) * wk (ix2 d c)

/-- The masked score row of query `i`. -/
def masked (b : Fin 4) (i : Fin 2048) (j : Fin 2048) : EReal :=
  Scalar.select (IntOp.cmpi .eq (mask (ix3 b i j)) 0#32) negBig (∑ c : Fin 64, qproj q wq b i c * kproj k wk b j c)

/-- The attention weights. -/
def attn (b : Fin 4) (i j : Fin 2048) : EReal := softmaxRow (masked q k mask wq wk b i) j

/-- The weighted values plus the residual, through the linear layer. -/
def lin (b : Fin 4) (i : Fin 2048) (e : Fin 512) : EReal :=
  ∑ d : Fin 512, ((∑ j : Fin 2048, attn q k mask wq wk b i j * v (ix3 b j d)) + v (ix3 b i d)) * wf (ix2 d e)

/-- The layer's first result. -/
def out (b : Fin 4) (i : Fin 2048) (e : Fin 512) : EReal :=
  normRow (lin q k v mask wq wk wf b i) (fun e' => g (ix1 e')) (fun e' => β (ix1 e')) e

/-- The two results as arrays. -/
def outArr : (⟨3, ![4, 2048, 512]⟩ : Shape).Idx → EReal := fun i => out q k v mask wq wk wf g β (i 0) (i 1) (i 2)
def attnArr : (⟨3, ![4, 2048, 2048]⟩ : Shape).Idx → EReal := fun i => attn q k mask wq wk (i 0) (i 1) (i 2)

end Layer

end Cert.Spec

end
-- ==== Proof.Tile.lean ====
/-
  The body's two stored values at an index of the tile, over the extended reals.

  For the query tile's row `p`: the attention weights are the softmax of the row of masked scores — scores of the
  scaled query projection of row `p` against the key projections the scratch holds —, and the output row is the
  layer norm of the linear layer applied to the weighted values plus the value row of this query.
-/
import proofs.«111095_j31765578121671_2_alg».proof.Proof.TileOps
import proofs.«111095_j31765578121671_2_alg».proof.Proof.Spec

noncomputable section

namespace Cert.KernelIdeal.Tile

open Cert.KernelIdeal Cert.KernelIdeal.Gen Cert.KernelIdeal.TileOps Idealize.ShloMosaic Idealize.ShloMosaic.ValueIdx

/-! ## Row reductions of a tile -/

/-- The row maxima of a tile of scores, from −∞. -/
def rowMaxV (s : FVec Ideal S256x2048 .f32) : FVec Ideal S256 .f32 :=
  multiReduction .maximumf [1] S256 s 0xFF800000#32 reduces_S256x2048_S256 (.inl rfl) rfl
/-- The row sums of a tile of 2048 columns. -/
def rowSumW (s : FVec Ideal S256x2048 .f32) : FVec Ideal S256 .f32 :=
  multiReduction .add [1] S256 s 0x00000000#32 reduces_S256x2048_S256 (.inl rfl) rfl
/-- The row sums of a tile of 512 columns. -/
def rowSumN (s : FVec Ideal S256x512 .f32) : FVec Ideal S256 .f32 :=
  multiReduction .add [1] S256 s 0x00000000#32 reduces_S256x512_S256 (.inl rfl) rfl

theorem rowMaxV_apply (s : FVec Ideal S256x2048 .f32) (p : Fin 256) :
    rowMaxV s (ix1 p) = Spec.rowMax (fun j => s (ix2 p j)) := by
  unfold rowMaxV
  exact rowMax_apply s _ _ _ _ p
theorem rowSumW_apply (s : FVec Ideal S256x2048 .f32) (p : Fin 256) :
    rowSumW s (ix1 p) = ∑ j : Fin 2048, s (ix2 p j) := by
  unfold rowSumW
  exact rowSum_keep_apply s _ _ _ _ p
theorem rowSumN_apply (s : FVec Ideal S256x512 .f32) (p : Fin 256) :
    rowSumN s (ix1 p) = ∑ e : Fin 512, s (ix2 p e) := by
  unfold rowSumN
  exact rowSum_keep_apply s _ _ _ _ p

/-! ## The key projection the scratch holds -/

theorem kproj_apply (x1 : Vec Ideal S1x2048x512 .bf16) (x5 : FVec Ideal S512x64 .bf16) (n : Fin 2048) (c : Fin 64) :
    k0_pay2 x1 x5 (ix2 n c) = ∑ d : Fin 512, x1 (ix3 (0 : Fin 1) n d) * x5 (ix2 d c) := by
  unfold k0_pay2
  simp only [shapeCast_self]
  show matmul dot_S2048x512_S512x64_S2048x64_1_0_0_1_n_n none (shapeCast S2048x512 x1 shapeCasts_S1x2048x512_S2048x512 : FVec Ideal S2048x512 .bf16) (x5 : FVec Ideal S512x64 .bf16)
    (constant S2048x64 .f32 0x00000000#32) (ix2 n c) = _
  rw [mm_kproj]
  exact Finset.sum_congr rfl fun d _ => by rw [shapeCast_1ab_ab_apply]

/-! ## The masked scores of the tile -/

/-- The masked scores, as the body computes them from the query tile, the query weights, the scratch and the mask tile. -/
def scores (x0 : Vec Ideal S1x256x512 .bf16) (x4 : Vec Ideal S512x64 .bf16) (kp : FVec Ideal S2048x64 .bf16)
    (x3 : Vec Ideal S1x256x2048 .i32) : FVec Ideal S256x2048 .f32 :=
  select (cmpi .eq (shapeCast S256x2048 x3 shapeCasts_S1x256x2048_S256x2048 : IVec S256x2048 32) (broadcast S256x2048 0#32))
    (broadcast S256x2048 (Scalar.ofBits .f32 0xCE6E6B28#32))
    (matmul dot_S256x64_S2048x64_S256x2048_1_1_0_0_n_n none
      (truncf .bf16 (divf (matmul dot_S256x512_S512x64_S256x64_1_0_0_1_n_n none (shapeCast S256x512 x0 shapeCasts_S1x256x512_S256x512 : FVec Ideal S256x512 .bf16)
        (shapeCast S512x64 x4 shapeCasts_S512x64_S512x64 : FVec Ideal S512x64 .bf16) (constant S256x64 .f32 0x00000000#32))
        (broadcast S256x64 (Scalar.ofBits .f32 0x41000000#32))) bitsLt_bf16_f32)
      kp (constant S256x2048 .f32 0x00000000#32))

/-- Row `p` of the masked scores, entry `j`, in the block's own coordinates. -/
def maskedRow (x0 : Vec Ideal S1x256x512 .bf16) (x4 : Vec Ideal S512x64 .bf16) (kp : FVec Ideal S2048x64 .bf16)
    (x3 : Vec Ideal S1x256x2048 .i32) (p : Fin 256) (j : Fin 2048) : EReal :=
  Scalar.select (IntOp.cmpi .eq (x3 (ix3 (0 : Fin 1) p j)) 0#32) Spec.negBig
    (∑ c : Fin 64, Ideal.div (∑ d : Fin 512, x0 (ix3 (0 : Fin 1) p d) * x4 (ix2 d c)) Spec.eight * kp (ix2 j c))

theorem scores_apply (x0 : Vec Ideal S1x256x512 .bf16) (x4 : Vec Ideal S512x64 .bf16) (kp : FVec Ideal S2048x64 .bf16)
    (x3 : Vec Ideal S1x256x2048 .i32) (p : Fin 256) (j : Fin 2048) :
    scores x0 x4 kp x3 (ix2 p j) = maskedRow x0 x4 kp x3 p j := by
  unfold scores maskedRow
  rw [select_apply]
  show Scalar.select (IntOp.cmpi .eq (shapeCast S256x2048 x3 shapeCasts_S1x256x2048_S256x2048 (ix2 p j)) 0#32) Spec.negBig _ = _
  rw [shapeCast_1ab_ab_apply, mm_score]
  refine congrArg _ (Finset.sum_congr rfl fun c _ => ?_)
  show Ideal.div (matmul dot_S256x512_S512x64_S256x64_1_0_0_1_n_n none (shapeCast S256x512 x0 shapeCasts_S1x256x512_S256x512 : FVec Ideal S256x512 .bf16)
    (shapeCast S512x64 x4 shapeCasts_S512x64_S512x64 : FVec Ideal S512x64 .bf16) (constant S256x64 .f32 0x00000000#32) (ix2 p c)) Spec.eight * _ = _
  rw [mm_qproj, shapeCast_self]
  refine congrArg (fun s => Ideal.div s Spec.eight * kp (ix2 j c)) (Finset.sum_congr rfl fun d _ => ?_)
  rw [shapeCast_1ab_ab_apply]

/-! ## The softmax of a tile of scores -/

/-- The softmax along the rows of a tile, as the body computes it. -/
def softmaxTile (s : FVec Ideal S256x2048 .f32) : FVec Ideal S256x2048 .f32 :=
  divf (exp (subf s (broadcastTo S256x2048 (shapeCast S256x1 (rowMaxV s) shapeCasts_S256_S256x1) broadcasts_S256x1_S256x2048)))
    (broadcastTo S256x2048 (shapeCast S256x1 (rowSumW (exp (subf s (broadcastTo S256x2048 (shapeCast S256x1 (rowMaxV s) shapeCasts_S256_S256x1) broadcasts_S256x1_S256x2048)))) shapeCasts_S256_S256x1) broadcasts_S256x1_S256x2048)

set_option maxRecDepth 65536 in
theorem pay3_eq (x0 : Vec Ideal S1x256x512 .bf16) (x4 : Vec Ideal S512x64 .bf16) (kp : FVec Ideal S2048x64 .bf16)
    (x3 : Vec Ideal S1x256x2048 .i32) : k0_pay3 x0 x4 kp x3 = softmaxTile (scores x0 x4 kp x3) := rfl

/-- The exponentials of a row less its maximum. -/
theorem exps_apply (s : FVec Ideal S256x2048 .f32) (p : Fin 256) (j : Fin 2048) :
    exp (subf s (broadcastTo S256x2048 (shapeCast S256x1 (rowMaxV s) shapeCasts_S256_S256x1) broadcasts_S256x1_S256x2048)) (ix2 p j)
      = Ideal.exp (s (ix2 p j) - Spec.rowMax (fun j' => s (ix2 p j'))) := by
  show Ideal.exp (s (ix2 p j) - broadcastTo S256x2048 _ broadcasts_S256x1_S256x2048 (ix2 p j)) = _
  rw [broadcastTo_a1_ab_apply, shapeCast_a_a1_apply, rowMaxV_apply]

theorem softmaxTile_apply (s : FVec Ideal S256x2048 .f32) (p : Fin 256) (j : Fin 2048) :
    softmaxTile s (ix2 p j) = Spec.softmaxRow (fun j' => s (ix2 p j')) j := by
  unfold softmaxTile Spec.softmaxRow
  rw [divf_apply, exps_apply, broadcastTo_a1_ab_apply, shapeCast_a_a1_apply, rowSumW_apply]
  simp only [exps_apply]

theorem attnTile_apply (x0 : Vec Ideal S1x256x512 .bf16) (x4 : Vec Ideal S512x64 .bf16) (kp : FVec Ideal S2048x64 .bf16)
    (x3 : Vec Ideal S1x256x2048 .i32) (p : Fin 256) (j : Fin 2048) :
    k0_pay3 x0 x4 kp x3 (ix2 p j) = Spec.softmaxRow (maskedRow x0 x4 kp x3 p) j := by
  rw [pay3_eq, softmaxTile_apply]
  simp only [scores_apply]

/-! ## The output tile -/

/-- The weighted values plus this tile's value rows, through the linear layer, as the body computes it. -/
def linTile (a : FVec Ideal S256x2048 .bf16) (v : Vec Ideal S1x2048x512 .f32) (vr : Vec Ideal S1x256x512 .f32)
    (wf : Vec Ideal S512x512 .bf16) : FVec Ideal S256x512 .f32 :=
  matmul dot_S256x512_S512x512_S256x512_1_0_0_1_n_n none
    (truncf .bf16 (addf (matmul dot_S256x2048_S2048x512_S256x512_1_0_0_1_n_n none a
        (truncf .bf16 (shapeCast S2048x512 v shapeCasts_S1x2048x512_S2048x512 : FVec Ideal S2048x512 .f32) bitsLt_bf16_f32) (constant S256x512 .f32 0x00000000#32))
      (shapeCast S256x512 vr shapeCasts_S1x256x512_S256x512 : FVec Ideal S256x512 .f32)) bitsLt_bf16_f32)
    (shapeCast S512x512 wf shapeCasts_S512x512_S512x512 : FVec Ideal S512x512 .bf16) (constant S256x512 .f32 0x00000000#32)

theorem linTile_apply (a : FVec Ideal S256x2048 .bf16) (v : Vec Ideal S1x2048x512 .f32) (vr : Vec Ideal S1x256x512 .f32)
    (wf : Vec Ideal S512x512 .bf16) (p : Fin 256) (e : Fin 512) :
    linTile a v vr wf (ix2 p e)
      = ∑ d : Fin 512, ((∑ j : Fin 2048, a (ix2 p j) * v (ix3 (0 : Fin 1) j d)) + vr (ix3 (0 : Fin 1) p d)) * wf (ix2 d e) := by
  unfold linTile
  rw [mm_lin, shapeCast_self]
  refine Finset.sum_congr rfl fun d _ => ?_
  show (matmul dot_S256x2048_S2048x512_S256x512_1_0_0_1_n_n none a
      (truncf .bf16 (shapeCast S2048x512 v shapeCasts_S1x2048x512_S2048x512 : FVec Ideal S2048x512 .f32) bitsLt_bf16_f32) (constant S256x512 .f32 0x00000000#32) (ix2 p d)
    + shapeCast S256x512 vr shapeCasts_S1x256x512_S256x512 (ix2 p d)) * wf (ix2 d e) = _
  rw [mm_mix, shapeCast_1ab_ab_apply]
  refine congrArg (fun s => (s + vr (ix3 (0 : Fin 1) p d)) * wf (ix2 d e)) (Finset.sum_congr rfl fun j _ => ?_)
  show a (ix2 p j) * shapeCast S2048x512 v shapeCasts_S1x2048x512_S2048x512 (ix2 j d) = _
  rw [shapeCast_1ab_ab_apply]

/-- A row mean kept as a column. -/
def meanCol (o : FVec Ideal S256x512 .f32) : FVec Ideal S256x1 .f32 :=
  divf (shapeCast S256x1 (rowSumN o) shapeCasts_S256_S256x1)
    (broadcast S256x1 (Scalar.ofBits .f32 0x44000000#32))

theorem meanCol_apply (o : FVec Ideal S256x512 .f32) (p : Fin 256) (u : Fin 1) :
    meanCol o (ix2 p u) = Spec.rowMean (fun e' => o (ix2 p e')) := by
  unfold meanCol Spec.rowMean
  rw [divf_apply, shapeCast_a_a1_apply, rowSumN_apply]
  rfl

/-- The layer norm along the rows of a tile, as the body computes it. -/
def normTile (o : FVec Ideal S256x512 .f32) (g bb : Vec Ideal S512 .f32) : FVec Ideal S256x512 .f32 :=
  addf (mulf (mulf (subf o (broadcastTo S256x512 (meanCol o) broadcasts_S256x1_S256x512))
      (broadcastTo S256x512 (rsqrt (addf (meanCol (mulf (subf o (broadcastTo S256x512 (meanCol o) broadcasts_S256x1_S256x512))
          (subf o (broadcastTo S256x512 (meanCol o) broadcasts_S256x1_S256x512))))
        (broadcast S256x1 (Scalar.ofBits .f32 0x358637BD#32)))) broadcasts_S256x1_S256x512))
      (broadcastTo S256x512 (shapeCast S1x512 g shapeCasts_S512_S1x512 : FVec Ideal S1x512 .f32) broadcasts_S1x512_S256x512))
    (broadcastTo S256x512 (shapeCast S1x512 bb shapeCasts_S512_S1x512 : FVec Ideal S1x512 .f32) broadcasts_S1x512_S256x512)

set_option maxRecDepth 65536 in
theorem pay6_eq (a : FVec Ideal S256x2048 .bf16) (v : Vec Ideal S1x2048x512 .f32) (vr : Vec Ideal S1x256x512 .f32)
    (wf : Vec Ideal S512x512 .bf16) (g bb : Vec Ideal S512 .f32) :
    k0_pay6 a v vr wf g bb = normTile (linTile a v vr wf) g bb := rfl

theorem cen_apply (o : FVec Ideal S256x512 .f32) (p : Fin 256) (e : Fin 512) :
    subf o (broadcastTo S256x512 (meanCol o) broadcasts_S256x1_S256x512) (ix2 p e)
      = o (ix2 p e) - Spec.rowMean (fun e' => o (ix2 p e')) := by
  rw [subf_apply, broadcastTo_a1_ab_apply, meanCol_apply]

theorem normTile_apply (o : FVec Ideal S256x512 .f32) (g bb : Vec Ideal S512 .f32) (p : Fin 256) (e : Fin 512) :
    normTile o g bb (ix2 p e) = Spec.normRow (fun e' => o (ix2 p e')) (fun e' => g (ix1 e')) (fun e' => bb (ix1 e')) e := by
  unfold normTile Spec.normRow
  rw [addf_apply, mulf_apply, mulf_apply, cen_apply, broadcastTo_a1_ab_apply, broadcastTo_1b_ab_apply, broadcastTo_1b_ab_apply,
    shapeCast_a_1a_apply, shapeCast_a_1a_apply]
  show (_ - _) * Ideal.rsqrt (meanCol _ (ix2 p (0 : Fin 1)) + Spec.eps) * _ + _ = _
  rw [meanCol_apply]
  simp only [mulf_apply, cen_apply]

theorem outTile_apply (a : FVec Ideal S256x2048 .bf16) (v : Vec Ideal S1x2048x512 .f32) (vr : Vec Ideal S1x256x512 .f32)
    (wf : Vec Ideal S512x512 .bf16) (g bb : Vec Ideal S512 .f32) (p : Fin 256) (e : Fin 512) :
    k0_pay6 a v vr wf g bb (ix2 p e)
      = Spec.normRow (fun e' => ∑ d : Fin 512, ((∑ j : Fin 2048, a (ix2 p j) * v (ix3 (0 : Fin 1) j d)) + vr (ix3 (0 : Fin 1) p d)) * wf (ix2 d e'))
          (fun e' => g (ix1 e')) (fun e' => bb (ix1 e')) e := by
  rw [pay6_eq, normTile_apply]
  simp only [linTile_apply]

/-! ## A tile's rows are the layer's rows, once each block entry is the argument's entry -/

/-- Row `p` of the tile's masked scores is row `i` of batch `b`'s, when the query tile's row `p` is the query's row `i`,
    the mask tile's row `p` the mask's row `i`, and the scratch the batch's key projection. -/
theorem maskedRow_eq (x0 : Vec Ideal S1x256x512 .bf16) (x4 : Vec Ideal S512x64 .bf16) (kp : FVec Ideal S2048x64 .bf16)
    (x3 : Vec Ideal S1x256x2048 .i32)
    (q k : (⟨3, ![4, 2048, 512]⟩ : Shape).Idx → EReal) (mask : (⟨3, ![4, 2048, 2048]⟩ : Shape).Idx → BitVec 32)
    (wq wk : (⟨2, ![512, 64]⟩ : Shape).Idx → EReal) (b : Fin 4) (i : Fin 2048) (p : Fin 256)
    (h0 : ∀ d : Fin 512, x0 (ix3 (0 : Fin 1) p d) = q (ix3 b i d))
    (h4 : ∀ (d : Fin 512) (c : Fin 64), x4 (ix2 d c) = wq (ix2 d c))
    (hk : ∀ (j : Fin 2048) (c : Fin 64), kp (ix2 j c) = Spec.kproj k wk b j c)
    (h3 : ∀ j : Fin 2048, x3 (ix3 (0 : Fin 1) p j) = mask (ix3 b i j)) :
    maskedRow x0 x4 kp x3 p = Spec.masked q k mask wq wk b i := by
  funext j
  unfold maskedRow Spec.masked Spec.qproj
  simp only [h0, h4, hk, h3]

/-- The tile's output row `p` is the layer's row `i` of batch `b`, when the weights row is the layer's attention row
    and each block entry the argument's entry. -/
theorem outRow_eq (a : FVec Ideal S256x2048 .bf16) (v : Vec Ideal S1x2048x512 .f32) (vr : Vec Ideal S1x256x512 .f32)
    (wf : Vec Ideal S512x512 .bf16) (g bb : Vec Ideal S512 .f32)
    (Q K V : (⟨3, ![4, 2048, 512]⟩ : Shape).Idx → EReal) (mask : (⟨3, ![4, 2048, 2048]⟩ : Shape).Idx → BitVec 32)
    (wq wk : (⟨2, ![512, 64]⟩ : Shape).Idx → EReal) (WF : (⟨2, ![512, 512]⟩ : Shape).Idx → EReal)
    (G B : (⟨1, ![512]⟩ : Shape).Idx → EReal) (b : Fin 4) (i : Fin 2048) (p : Fin 256)
    (ha : ∀ j : Fin 2048, a (ix2 p j) = Spec.attn Q K mask wq wk b i j)
    (hv : ∀ (j : Fin 2048) (d : Fin 512), v (ix3 (0 : Fin 1) j d) = V (ix3 b j d))
    (hvr : ∀ d : Fin 512, vr (ix3 (0 : Fin 1) p d) = V (ix3 b i d))
    (hwf : ∀ d e : Fin 512, wf (ix2 d e) = WF (ix2 d e))
    (hg : ∀ e : Fin 512, g (ix1 e) = G (ix1 e)) (hb : ∀ e : Fin 512, bb (ix1 e) = B (ix1 e)) (e : Fin 512) :
    Spec.normRow (fun e' => ∑ d : Fin 512, ((∑ j : Fin 2048, a (ix2 p j) * v (ix3 (0 : Fin 1) j d)) + vr (ix3 (0 : Fin 1) p d)) * wf (ix2 d e'))
        (fun e' => g (ix1 e')) (fun e' => bb (ix1 e')) e
      = Spec.out Q K V mask wq wk WF G B b i e := by
  unfold Spec.out Spec.lin
  simp only [ha, hv, hvr, hwf, hg, hb]

end Cert.KernelIdeal.Tile

end
-- ==== Proof.KernelValue.lean ====
/-
  The kernel's two result arrays after the run are the layer of `Spec` of its arguments.

  The grid is 4 batches × 8 query tiles of 256 rows, visited in order; point `t` is batch `t / 8`, tile `t % 8`.
  The scratch holds, after every point of a batch, the key projection of that batch (stored at the batch's first tile,
  kept by the later ones).  So each point writes back the rows `256·(t % 8) … + 255` of batch `t / 8` of the two
  results, and the 32 blocks tile both arrays.
-/
import proofs.«111095_j31765578121671_2_alg».proof.Proof.Gen.KernelIdeal.Value
import proofs.«111095_j31765578121671_2_alg».proof.Proof.Pieces
import proofs.«111095_j31765578121671_2_alg».proof.Proof.Tile
import proofs.«111095_j31765578121671_2_alg».proof.Proof.Spec
import Idealize.ShloMosaic.Lib.StableHlo.Run

set_option maxRecDepth 16384

noncomputable section

namespace Cert.KernelIdeal.KV

open Cert.KernelIdeal Cert.KernelIdeal.Gen Cert.KernelIdeal.Pieces Cert.KernelIdeal.Tile Cert.KernelIdeal.TileOps
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays the region finds: the host's changes of format are the identity -/

theorem V_v0 (c : Dev nD) : (V m c main_v0 : S4x2048x512.Idx → EReal) = m ((c : Thread nD τ).loc main_arg0) := by
  dsimp only [V, hostOps0]; after_results; rfl
theorem V_v1 (c : Dev nD) : (V m c main_v1 : S4x2048x512.Idx → EReal) = m ((c : Thread nD τ).loc main_arg1) := by
  dsimp only [V, hostOps0]; after_results; rfl
theorem V_v2 (c : Dev nD) : (V m c main_v2 : S512x64.Idx → EReal) = m ((c : Thread nD τ).loc main_arg4) := by
  dsimp only [V, hostOps0]; after_results; rfl
theorem V_v3 (c : Dev nD) : (V m c main_v3 : S512x64.Idx → EReal) = m ((c : Thread nD τ).loc main_arg5) := by
  dsimp only [V, hostOps0]; after_results; rfl
theorem V_v4 (c : Dev nD) : (V m c main_v4 : S512x512.Idx → EReal) = m ((c : Thread nD τ).loc main_arg6) := by
  dsimp only [V, hostOps0]; after_results; rfl

/-! ## The index maps over the grid -/

theorem N32 : cfg0.N = 32 := N_0

/-- Each window's block index at point `t`: the batch `t / 8`, and for the tiled windows the tile `t % 8`. -/
theorem idx_facts : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = t.val % 8 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ win0_7.index t (0 : Fin 1) = 0
    ∧ win0_8.index t (0 : Fin 1) = 0
    ∧ (win0_9.index t (0 : Fin 3) = t.val / 8 ∧ win0_9.index t (1 : Fin 3) = t.val % 8 ∧ win0_9.index t (2 : Fin 3) = 0)
    ∧ (win0_10.index t (0 : Fin 3) = t.val / 8 ∧ win0_10.index t (1 : Fin 3) = t.val % 8 ∧ win0_10.index t (2 : Fin 3) = 0)
    ∧ k0_off1 (grid0.coords t) = ![0, 256 * (t.val % 8), 0] :=
  (by decide +kernel : ∀ t : Fin grid0.N, _)

/-- The batch and the first row of point `t`. -/
abbrev bat (t : Fin cfg0.N) : Fin 4 := ⟨t.val / 8, by have := lt_of_lt_of_eq t.isLt N32; omega⟩
abbrev row (t : Fin cfg0.N) (p : Fin 256) : Fin 2048 := ⟨256 * (t.val % 8) + p.val, by have := p.isLt; omega⟩
/-! ## The blocks the body loads, entry by entry -/

theorem blk0 (c : Dev nD) (t : Fin cfg0.N) (p : Fin 256) (d : Fin 512) :
    (iblk m c 0 t : Vec Ideal S1x256x512 .bf16) (ix3 (0 : Fin 1) p d) = m ((c : Thread nD τ).loc main_arg0) (ix3 (bat t) (row t p) d) := by
  obtain ⟨e0, e1, e2⟩ := (idx_facts t).1
  unfold iblk
  rw [View.read_apply]
  show V m c main_v0 _ = _
  rw [V_v0]
  congr 1
  funext a
  apply Fin.ext
  match a with
  | ⟨0, _⟩ => show win0_0.index t 0 * 1 + 1 * 0 = t.val / 8; rw [e0]; omega
  | ⟨1, _⟩ => show win0_0.index t 1 * 256 + 1 * p.val = 256 * (t.val % 8) + p.val; rw [e1]; omega
  | ⟨2, _⟩ => show win0_0.index t 2 * 512 + 1 * d.val = d.val; rw [e2]; omega

theorem blk1 (c : Dev nD) (t : Fin cfg0.N) (p : Fin 2048) (d : Fin 512) :
    (iblk m c 1 t : Vec Ideal S1x2048x512 .bf16) (ix3 (0 : Fin 1) p d) = m ((c : Thread nD τ).loc main_arg1) (ix3 (bat t) p d) := by
  obtain ⟨e0, e1, e2⟩ := (idx_facts t).2.1
  unfold iblk
  rw [View.read_apply]
  show V m c main_v1 _ = _
  rw [V_v1]
  congr 1
  funext a
  apply Fin.ext
  match a with
  | ⟨0, _⟩ => show win0_1.index t 0 * 1 + 1 * 0 = t.val / 8; rw [e0]; omega
  | ⟨1, _⟩ => show win0_1.index t 1 * 2048 + 1 * p.val = p.val; rw [e1]; omega
  | ⟨2, _⟩ => show win0_1.index t 2 * 512 + 1 * d.val = d.val; rw [e2]; omega

theorem blk2 (c : Dev nD) (t : Fin cfg0.N) (p : Fin 2048) (d : Fin 512) :
    (iblk m c 2 t : Vec Ideal S1x2048x512 .f32) (ix3 (0 : Fin 1) p d) = m ((c : Thread nD τ).loc main_arg2) (ix3 (bat t) p d) := by
  obtain ⟨e0, e1, e2⟩ := (idx_facts t).2.2.1
  unfold iblk
  rw [View.read_apply]
  show V m c main_arg2 _ = _
  rw [V_main_arg2]
  congr 1
  funext a
  apply Fin.ext
  match a with
  | ⟨0, _⟩ => show win0_2.index t 0 * 1 + 1 * 0 = t.val / 8; rw [e0]; omega
  | ⟨1, _⟩ => show win0_2.index t 1 * 2048 + 1 * p.val = p.val; rw [e1]; omega
  | ⟨2, _⟩ => show win0_2.index t 2 * 512 + 1 * d.val = d.val; rw [e2]; omega

theorem blk3 (c : Dev nD) (t : Fin cfg0.N) (p : Fin 256) (d : Fin 2048) :
    (iblk m c 3 t : Vec Ideal S1x256x2048 .i32) (ix3 (0 : Fin 1) p d) = m ((c : Thread nD τ).loc main_arg3) (ix3 (bat t) (row t p) d) := by
  obtain ⟨e0, e1, e2⟩ := (idx_facts t).2.2.2.1
  unfold iblk
  rw [View.read_apply]
  show V m c main_arg3 _ = _
  rw [V_main_arg3]
  congr 1
  funext a
  apply Fin.ext
  match a with
  | ⟨0, _⟩ => show win0_3.index t 0 * 1 + 1 * 0 = t.val / 8; rw [e0]; omega
  | ⟨1, _⟩ => show win0_3.index t 1 * 256 + 1 * p.val = 256 * (t.val % 8) + p.val; rw [e1]; omega
  | ⟨2, _⟩ => show win0_3.index t 2 * 2048 + 1 * d.val = d.val; rw [e2]; omega

theorem blk4 (c : Dev nD) (t : Fin cfg0.N) (p : Fin 512) (d : Fin 64) :
    (iblk m c 4 t : Vec Ideal S512x64 .bf16) (ix2 p d) = m ((c : Thread nD τ).loc main_arg4) (ix2 p d) := by
  obtain ⟨e0, e1⟩ := (idx_facts t).2.2.2.2.1
  unfold iblk
  rw [View.read_apply]
  show V m c main_v2 _ = _
  rw [V_v2]
  congr 1
  funext a
  apply Fin.ext
  match a with
  | ⟨0, _⟩ => show win0_4.index t 0 * 512 + 1 * p.val = p.val; rw [e0]; omega
  | ⟨1, _⟩ => show win0_4.index t 1 * 64 + 1 * d.val = d.val; rw [e1]; omega

theorem blk5 (c : Dev nD) (t : Fin cfg0.N) (p : Fin 512) (d : Fin 64) :
    (iblk m c 5 t : Vec Ideal S512x64 .bf16) (ix2 p d) = m ((c : Thread nD τ).loc main_arg5) (ix2 p d) := by
  obtain ⟨e0, e1⟩ := (idx_facts t).2.2.2.2.2.1
  unfold iblk
  rw [View.read_apply]
  show V m c main_v3 _ = _
  rw [V_v3]
  congr 1
  funext a
  apply Fin.ext
  match a with
  | ⟨0, _⟩ => show win0_5.index t 0 * 512 + 1 * p.val = p.val; rw [e0]; omega
  | ⟨1, _⟩ => show win0_5.index t 1 * 64 + 1 * d.val = d.val; rw [e1]; omega

theorem blk6 (c : Dev nD) (t : Fin cfg0.N) (p : Fin 512) (d : Fin 512) :
    (iblk m c 6 t : Vec Ideal S512x512 .bf16) (ix2 p d) = m ((c : Thread nD τ).loc main_arg6) (ix2 p d) := by
  obtain ⟨e0, e1⟩ := (idx_facts t).2.2.2.2.2.2.1
  unfold iblk
  rw [View.read_apply]
  show V m c main_v4 _ = _
  rw [V_v4]
  congr 1
  funext a
  apply Fin.ext
  match a with
  | ⟨0, _⟩ => show win0_6.index t 0 * 512 + 1 * p.val = p.val; rw [e0]; omega
  | ⟨1, _⟩ => show win0_6.index t 1 * 512 + 1 * d.val = d.val; rw [e1]; omega

theorem blk7 (c : Dev nD) (t : Fin cfg0.N) (e : Fin 512) :
    (iblk m c 7 t : Vec Ideal S512 .f32) (ix1 e) = m ((c : Thread nD τ).loc main_arg7) (ix1 e) := by
  have e0 := (idx_facts t).2.2.2.2.2.2.2.1
  unfold iblk
  rw [View.read_apply]
  show V m c main_arg7 _ = _
  rw [V_main_arg7]
  congr 1
  funext a
  apply Fin.ext
  match a with
  | ⟨0, _⟩ => show win0_7.index t 0 * 512 + 1 * e.val = e.val; rw [e0]; omega

theorem blk8 (c : Dev nD) (t : Fin cfg0.N) (e : Fin 512) :
    (iblk m c 8 t : Vec Ideal S512 .f32) (ix1 e) = m ((c : Thread nD τ).loc main_arg8) (ix1 e) := by
  have e0 := (idx_facts t).2.2.2.2.2.2.2.2.1
  unfold iblk
  rw [View.read_apply]
  show V m c main_arg8 _ = _
  rw [V_main_arg8]
  congr 1
  funext a
  apply Fin.ext
  match a with
  | ⟨0, _⟩ => show win0_8.index t 0 * 512 + 1 * e.val = e.val; rw [e0]; omega

/-- The value rows of this query tile, read out of the batch's value block. -/
theorem vrows_apply (c : Dev nD) (t : Fin cfg0.N) (p : Fin 256) (d : Fin 512) :
    vrows (grid0.coords t) (iblk m c 2 t : Vec Ideal S1x2048x512 .f32) (ix3 (0 : Fin 1) p d)
      = m ((c : Thread nD τ).loc main_arg2) (ix3 (bat t) (row t p) d) := by
  have ho := (idx_facts t).2.2.2.2.2.2.2.2.2.2.2
  rw [← blk2 m c t (row t p) d]
  show (iblk m c 2 t : Vec Ideal S1x2048x512 .f32) _ = _
  congr 1
  funext a
  apply Fin.ext
  match a with
  | ⟨0, _⟩ => show k0_off1 (grid0.coords t) 0 + 1 * 0 = 0; rw [ho]; rfl
  | ⟨1, _⟩ => show k0_off1 (grid0.coords t) 1 + 1 * p.val = 256 * (t.val % 8) + p.val; rw [ho]; show 256 * (t.val % 8) + 1 * p.val = _; omega
  | ⟨2, _⟩ => show k0_off1 (grid0.coords t) 2 + 1 * d.val = d.val; rw [ho]; show 0 + 1 * d.val = _; omega

/-! ## The scratch: the batch's key projection after every point -/

/-- The two result arrays, as the layer of the arguments. -/
def attnA (c : Dev nD) : S4x2048x2048.Idx → EReal := Spec.attnArr (m ((c : Thread nD τ).loc main_arg0)) (m ((c : Thread nD τ).loc main_arg1)) (m ((c : Thread nD τ).loc main_arg3)) (m ((c : Thread nD τ).loc main_arg4)) (m ((c : Thread nD τ).loc main_arg5))
def outA (c : Dev nD) : S4x2048x512.Idx → EReal := Spec.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Batch `b`'s key projection, as the scratch holds it. -/
def kpArr (c : Dev nD) (b : Fin 4) : FVec Ideal S2048x64 .bf16 :=
  fun y => Spec.kproj (m ((c : Thread nD τ).loc main_arg1)) (m ((c : Thread nD τ).loc main_arg5)) b (y 0) (y 1)

/-- The key projection of the key block at point `t` is the batch's. -/
theorem kp_at (c : Dev nD) (t : Fin cfg0.N) : k0_pay2 (iblk m c 1 t) (iblk m c 5 t) = kpArr m c (bat t) := by
  funext y
  obtain ⟨r, cc, rfl⟩ : ∃ (r : Fin 2048) (cc : Fin 64), y = ix2 r cc := ⟨y 0, y 1, eq_ix2 y⟩
  refine (kproj_apply (iblk m c 1 t) (iblk m c 5 t) r cc).trans ?_
  show _ = Spec.kproj _ _ (bat t) r cc
  unfold Spec.kproj
  exact Finset.sum_congr rfl fun d _ => by rw [blk1, blk5]

/-- After point `n` the scratch holds the key projection of batch `n / 8`: stored at the batch's first tile, kept after. -/
theorem scratch_eq (c : Dev nD) (n : ℕ) : ∀ h : n < cfg0.N,
    (outsAt0 m c n h).2.2 = kpArr m c ⟨n / 8, by have := lt_of_lt_of_eq h N32; omega⟩ := by
  induction n using Nat.strong_induction_on with
  | _ n ih =>
    intro h
    have hN := lt_of_lt_of_eq h N32
    by_cases h0 : n % 8 = 0
    · rw [outsAt0_A m c ⟨n, h⟩ h0]
      dsimp only
      rw [sout_A]
      exact kp_at m c ⟨n, h⟩
    · rw [outsAt0_B m c ⟨n, h⟩ h0]
      dsimp only
      unfold sout0_B_0
      rw [ih (n - 1) (by omega) (by omega)]
      congr 1
      apply Fin.ext
      show (n - 1) / 8 = n / 8
      omega

/-! ## What each point writes back -/

/-- The attention weights the body computes at point `t`, entry `(p, j)` of the tile: the layer's at row `256·(t % 8) + p`. -/
theorem attn_at (c : Dev nD) (t : Fin cfg0.N) (p : Fin 256) (j : Fin 2048) :
    k0_pay3 (iblk m c 0 t) (iblk m c 4 t) (kpArr m c (bat t)) (iblk m c 3 t) (ix2 p j)
      = Spec.attn (m ((c : Thread nD τ).loc main_arg0)) (m ((c : Thread nD τ).loc main_arg1)) (m ((c : Thread nD τ).loc main_arg3)) (m ((c : Thread nD τ).loc main_arg4)) (m ((c : Thread nD τ).loc main_arg5)) (bat t) (row t p) j := by
  refine (attnTile_apply (iblk m c 0 t) (iblk m c 4 t) (kpArr m c (bat t)) (iblk m c 3 t) p j).trans ?_
  unfold Spec.attn
  exact congrArg (fun s => Spec.softmaxRow s j)
    (maskedRow_eq (iblk m c 0 t) (iblk m c 4 t) (kpArr m c (bat t)) (iblk m c 3 t) _ _ _ _ _ (bat t) (row t p) p
      (fun d => blk0 m c t p d) (fun d cc => blk4 m c t d cc) (fun _ _ => rfl) (fun j' => blk3 m c t p j'))

/-- The output the body computes at point `t`, entry `(p, e)` of the tile: the layer's at row `256·(t % 8) + p`. -/
theorem out_at (c : Dev nD) (t : Fin cfg0.N) (p : Fin 256) (e : Fin 512) :
    k0_pay6 (k0_pay5 (iblk m c 0 t) (iblk m c 4 t) (kpArr m c (bat t)) (iblk m c 3 t)) (iblk m c 2 t)
        (vrows (grid0.coords t) (iblk m c 2 t)) (iblk m c 6 t) (iblk m c 7 t) (iblk m c 8 t) (ix2 p e)
      = Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (bat t) (row t p) e := by
  refine (outTile_apply (k0_pay5 (iblk m c 0 t) (iblk m c 4 t) (kpArr m c (bat t)) (iblk m c 3 t)) (iblk m c 2 t)
    (vrows (grid0.coords t) (iblk m c 2 t)) (iblk m c 6 t) (iblk m c 7 t) (iblk m c 8 t) p e).trans ?_
  exact outRow_eq (k0_pay5 (iblk m c 0 t) (iblk m c 4 t) (kpArr m c (bat t)) (iblk m c 3 t)) (iblk m c 2 t)
    (vrows (grid0.coords t) (iblk m c 2 t)) (iblk m c 6 t) (iblk m c 7 t) (iblk m c 8 t) _ _ _ _ _ _ _ _ _ (bat t) (row t p) p
    (fun j => attn_at m c t p j) (fun j d => blk2 m c t j d) (fun d => vrows_apply m c t p d) (fun d e' => blk6 m c t d e')
    (fun e' => blk7 m c t e') (fun e' => blk8 m c t e') e

/-- What the two output buffers hold after the body at point `t`: the body's pure terms over the batch's key projection. -/
theorem after_eq (c : Dev nD) (t : Fin cfg0.N) :
    (outsAt0 m c t.val t.isLt).1
        = k0_pay1 (k0_pay6 (k0_pay5 (iblk m c 0 t) (iblk m c 4 t) (kpArr m c (bat t)) (iblk m c 3 t)) (iblk m c 2 t)
            (vrows (grid0.coords t) (iblk m c 2 t)) (iblk m c 6 t) (iblk m c 7 t) (iblk m c 8 t))
    ∧ (outsAt0 m c t.val t.isLt).2.1 = k0_pay4 (iblk m c 0 t) (iblk m c 4 t) (kpArr m c (bat t)) (iblk m c 3 t) := by
  have hN := lt_of_lt_of_eq t.isLt N32
  by_cases h0 : t.val % 8 = 0
  · rw [outsAt0_A m c t h0]
    dsimp only
    rw [out_A_9, out_A_10, kp_at]
    exact ⟨rfl, rfl⟩
  · rw [outsAt0_B m c t h0]
    dsimp only
    rw [out_B_9, out_B_10, scratch_eq m c (t.val - 1) (by omega)]
    have hb : (⟨(t.val - 1) / 8, by omega⟩ : Fin 4) = bat t := Fin.ext (by show (t.val - 1) / 8 = t.val / 8; omega)
    rw [hb]
    exact ⟨rfl, rfl⟩

/-! ## From blocks to the arrays -/

/-- Entry `(u, p, j)` of point `t`'s block of either result sits at `(t / 8, 256·(t % 8) + p, j)` of the array. -/
theorem emb9 (t : Fin cfg0.N) (u : Fin 1) (p : Fin 256) (e : Fin 512) :
    ((cfg0.win 9).blk t).view.emb (ix3 u p e) = ix3 (bat t) (row t p) e := by
  obtain ⟨e0, e1, e2⟩ := (idx_facts t).2.2.2.2.2.2.2.2.2.1
  have hu : u.val = 0 := by omega
  funext a
  apply Fin.ext
  match a with
  | ⟨0, _⟩ => show win0_9.index t 0 * 1 + 1 * u.val = t.val / 8; rw [e0, hu]; omega
  | ⟨1, _⟩ => show win0_9.index t 1 * 256 + 1 * p.val = 256 * (t.val % 8) + p.val; rw [e1]; omega
  | ⟨2, _⟩ => show win0_9.index t 2 * 512 + 1 * e.val = e.val; rw [e2]; omega

theorem emb10 (t : Fin cfg0.N) (u : Fin 1) (p : Fin 256) (j : Fin 2048) :
    ((cfg0.win 10).blk t).view.emb (ix3 u p j) = ix3 (bat t) (row t p) j := by
  obtain ⟨e0, e1, e2⟩ := (idx_facts t).2.2.2.2.2.2.2.2.2.2.1
  have hu : u.val = 0 := by omega
  funext a
  apply Fin.ext
  match a with
  | ⟨0, _⟩ => show win0_10.index t 0 * 1 + 1 * u.val = t.val / 8; rw [e0, hu]; omega
  | ⟨1, _⟩ => show win0_10.index t 1 * 256 + 1 * p.val = 256 * (t.val % 8) + p.val; rw [e1]; omega
  | ⟨2, _⟩ => show win0_10.index t 2 * 2048 + 1 * j.val = j.val; rw [e2]; omega

/-- What point `t` writes back to the first result is block `t` of the layer's output. -/
theorem flushed9_eq (c : Dev nD) (t : Fin cfg0.N) :
    (dats m 0 c).flushed 9 t = ((cfg0.win 9).blk t).view.read (Elt Ideal) (outA m c) := by
  rw [Value.flushed9, (after_eq m c t).1]
  funext y
  obtain ⟨u, p, e, rfl⟩ : ∃ (u : Fin 1) (p : Fin 256) (e : Fin 512), y = ix3 u p e := ⟨y 0, y 1, y 2, eq_ix3 y⟩
  show k0_pay1 (F := Ideal) _ (ix3 u p e) = outA m c (((cfg0.win 9).blk t).view.emb (ix3 u p e))
  rw [emb9]
  unfold k0_pay1
  rw [shapeCast_ab_1ab_apply, out_at]
  rfl

/-- What point `t` writes back to the second result is block `t` of the layer's attention weights. -/
theorem flushed10_eq (c : Dev nD) (t : Fin cfg0.N) :
    (dats m 0 c).flushed 10 t = ((cfg0.win 10).blk t).view.read (Elt Ideal) (attnA m c) := by
  rw [Value.flushed10, (after_eq m c t).2]
  funext y
  obtain ⟨u, p, j, rfl⟩ : ∃ (u : Fin 1) (p : Fin 256) (j : Fin 2048), y = ix3 u p j := ⟨y 0, y 1, y 2, eq_ix3 y⟩
  show k0_pay4 (F := Ideal) _ _ _ _ (ix3 u p j) = attnA m c (((cfg0.win 10).blk t).view.emb (ix3 u p j))
  rw [emb10]
  unfold k0_pay4
  rw [shapeCast_ab_1ab_apply, attn_at]
  rfl

/-- An index of the first result is in point `t`'s block iff each coordinate is in the block's range on its axis. -/
theorem mem_blk9 (t : Fin cfg0.N) (i : S4x2048x512.Idx) :
    i ∈ ((cfg0.win 9).blk t).view.set ↔ ∀ a : Fin 3, win0_9.index t a * S1x256x512.size a ≤ (i a).val ∧ (i a).val < win0_9.index t a * S1x256x512.size a + S1x256x512.size a := by
  show i ∈ ((View.whole main_v5_0).slice (win0_9.rect t)).set ↔ _
  rw [View.set_slice_whole, Rect.mem_set_unit]
  exact Iff.rfl

theorem mem_blk10 (t : Fin cfg0.N) (i : S4x2048x2048.Idx) :
    i ∈ ((cfg0.win 10).blk t).view.set ↔ ∀ a : Fin 3, win0_10.index t a * S1x256x2048.size a ≤ (i a).val ∧ (i a).val < win0_10.index t a * S1x256x2048.size a + S1x256x2048.size a := by
  show i ∈ ((View.whole main_v5_1).slice (win0_10.rect t)).set ↔ _
  rw [View.set_slice_whole, Rect.mem_set_unit]
  exact Iff.rfl

/-- Row `r` of batch `b` is in the block of point `8·b + r / 256`: the blocks tile the first result, -/
theorem cover9 (i : S4x2048x512.Idx) : ∃ t : Fin cfg0.N, (cfg0.win 9).flush t = true ∧ i ∈ ((cfg0.win 9).blk t).view.set := by
  have h0 : (i 0).val < 4 := (i 0).isLt
  have h1 : (i 1).val < 2048 := (i 1).isLt
  have h2 : (i 2).val < 512 := (i 2).isLt
  obtain ⟨t, ht⟩ : ∃ t : Fin cfg0.N, t.val = 8 * (i 0).val + (i 1).val / 256 :=
    ⟨⟨8 * (i 0).val + (i 1).val / 256, by rw [N32]; omega⟩, rfl⟩
  refine ⟨t, flush0_9 t, ?_⟩
  rw [mem_blk9]
  obtain ⟨e0, e1, e2⟩ := (idx_facts t).2.2.2.2.2.2.2.2.2.1
  intro a
  match a with
  | ⟨0, _⟩ => show win0_9.index t 0 * 1 ≤ (i 0).val ∧ (i 0).val < win0_9.index t 0 * 1 + 1; rw [e0, ht]; omega
  | ⟨1, _⟩ => show win0_9.index t 1 * 256 ≤ (i 1).val ∧ (i 1).val < win0_9.index t 1 * 256 + 256; rw [e1, ht]; omega
  | ⟨2, _⟩ => show win0_9.index t 2 * 512 ≤ (i 2).val ∧ (i 2).val < win0_9.index t 2 * 512 + 512; rw [e2]; omega

/-- and the second. -/
theorem cover10 (i : S4x2048x2048.Idx) : ∃ t : Fin cfg0.N, (cfg0.win 10).flush t = true ∧ i ∈ ((cfg0.win 10).blk t).view.set := by
  have h0 : (i 0).val < 4 := (i 0).isLt
  have h1 : (i 1).val < 2048 := (i 1).isLt
  have h2 : (i 2).val < 2048 := (i 2).isLt
  obtain ⟨t, ht⟩ : ∃ t : Fin cfg0.N, t.val = 8 * (i 0).val + (i 1).val / 256 :=
    ⟨⟨8 * (i 0).val + (i 1).val / 256, by rw [N32]; omega⟩, rfl⟩
  refine ⟨t, flush0_10 t, ?_⟩
  rw [mem_blk10]
  obtain ⟨e0, e1, e2⟩ := (idx_facts t).2.2.2.2.2.2.2.2.2.2.1
  intro a
  match a with
  | ⟨0, _⟩ => show win0_10.index t 0 * 1 ≤ (i 0).val ∧ (i 0).val < win0_10.index t 0 * 1 + 1; rw [e0, ht]; omega
  | ⟨1, _⟩ => show win0_10.index t 1 * 256 ≤ (i 1).val ∧ (i 1).val < win0_10.index t 1 * 256 + 256; rw [e1, ht]; omega
  | ⟨2, _⟩ => show win0_10.index t 2 * 2048 ≤ (i 2).val ∧ (i 2).val < win0_10.index t 2 * 2048 + 2048; rw [e2]; omega

/-- So after the run the two result arrays are the layer's output and attention weights. -/
theorem final9 (c : Dev nD) : (dats m 0 c).arrAt 9 cfg0.N = outA m c :=
  (dats m 0 c).arrAt_eq_of_cover 9 (outA m c) (fun t _ => flushed9_eq m c t) cover9
theorem final10 (c : Dev nD) : (dats m 0 c).arrAt 10 cfg0.N = attnA m c :=
  (dats m 0 c).arrAt_eq_of_cover 10 (attnA m c) (fun t _ => flushed10_eq m c t) cover10

/-- The run, read: the results at the layer of the arguments, the arguments unchanged. -/
theorem run : θ_run defs (onTc (τ := τ) (main (F := Ideal))) ⟨m, fun _ => 0, ρ⟩ fun r => ∀ c : Dev nD,
      r.2.mem ((c : Thread nD τ).loc main_v5_0) = outA m c
      ∧ r.2.mem ((c : Thread nD τ).loc main_v5_1) = attnA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2.1.trans (final10 m c), (h c).2.2⟩)
    (Value.run_blocks m ρ)

end Cert.KernelIdeal.KV

end
-- ==== Proof.RefSpec.lean ====
/-
  The reference program, read one operation at a time, is the layer of `Spec`: its two results are the arrays
  `Spec.attnArr` and `Spec.outArr` of its arguments.  Each step reads one stage at explicit coordinates
  `(b, i, ·)`; a product of matrices is its sum over the contracted coordinate, a row sum is zero plus the sum, the row
  maximum is a fold of `max` from −∞ (and `max (−∞) ·` of it changes nothing), and the final product with the word
  of 1 is the identity.
-/
import proofs.«111095_j31765578121671_2_alg».proof.Proof.Gen.ReferenceIdeal.Read
import proofs.«111095_j31765578121671_2_alg».proof.Proof.Spec
import Idealize.ShloMosaic.PureOps.Reduce

noncomputable section

namespace Cert.ReferenceIdeal.RefSpec

open Cert.ReferenceIdeal Cert.ReferenceIdeal.Gen Cert.ReferenceIdeal.Read Idealize.ShloMosaic Idealize.ShloMosaic.ValueIdx

variable (x0 x1 x2 : (⟨S4x2048x512, .f32⟩ : BufTy).Contents (Elt Ideal)) (x3 : (⟨S4x2048x2048, .i32⟩ : BufTy).Contents (Elt Ideal)) (x4 x5 : (⟨S512x64, .f32⟩ : BufTy).Contents (Elt Ideal)) (x6 : (⟨S512x512, .f32⟩ : BufTy).Contents (Elt Ideal)) (x7 x8 : (⟨S512, .f32⟩ : BufTy).Contents (Elt Ideal))

/-! ## The operations' index maps at explicit coordinates -/

theorem l0 (b : Fin 4) (i : Fin 2048) (c : Fin 64) (k : Fin 512) : lidx_main_v0 (ix3 b i c) k = ix3 b i k := funext fun a => Fin.ext (by match a with | ⟨0, _⟩ => rfl | ⟨1, _⟩ => rfl | ⟨2, _⟩ => rfl)
theorem r0 (b : Fin 4) (i : Fin 2048) (c : Fin 64) (k : Fin 512) : ridx_main_v0 (ix3 b i c) k = ix2 k c := funext fun a => Fin.ext (by match a with | ⟨0, _⟩ => rfl | ⟨1, _⟩ => rfl)
theorem l1 (b : Fin 4) (i : Fin 2048) (c : Fin 64) (k : Fin 512) : lidx_main_v1 (ix3 b i c) k = ix3 b i k := funext fun a => Fin.ext (by match a with | ⟨0, _⟩ => rfl | ⟨1, _⟩ => rfl | ⟨2, _⟩ => rfl)
theorem r1 (b : Fin 4) (i : Fin 2048) (c : Fin 64) (k : Fin 512) : ridx_main_v1 (ix3 b i c) k = ix2 k c := funext fun a => Fin.ext (by match a with | ⟨0, _⟩ => rfl | ⟨1, _⟩ => rfl)
theorem l4 (b : Fin 4) (i j : Fin 2048) (k : Fin 64) : lidx_main_v4 (ix3 b i j) k = ix3 b i k := funext fun a => Fin.ext (by match a with | ⟨0, _⟩ => rfl | ⟨1, _⟩ => rfl | ⟨2, _⟩ => rfl)
theorem r4 (b : Fin 4) (i j : Fin 2048) (k : Fin 64) : ridx_main_v4 (ix3 b i j) k = ix3 b j k := funext fun a => Fin.ext (by match a with | ⟨0, _⟩ => rfl | ⟨1, _⟩ => rfl | ⟨2, _⟩ => rfl)
theorem i12 (b : Fin 4) (i j : Fin 2048) : idx_main_v11 (idx_main_v12 (ix3 b i j)) = ix2 b i := funext fun a => Fin.ext (by match a with | ⟨0, _⟩ => rfl | ⟨1, _⟩ => rfl)
theorem i15 (b : Fin 4) (i : Fin 2048) (k : Fin 2048) : idx_main_v15 (ix2 b i) k = ix3 b i k := funext fun a => Fin.ext (by match a with | ⟨0, _⟩ => rfl | ⟨1, _⟩ => rfl | ⟨2, _⟩ => rfl)
theorem i17 (b : Fin 4) (i j : Fin 2048) : idx_main_v16 (idx_main_v17 (ix3 b i j)) = ix2 b i := funext fun a => Fin.ext (by match a with | ⟨0, _⟩ => rfl | ⟨1, _⟩ => rfl)
theorem l21 (b : Fin 4) (i : Fin 2048) (d : Fin 512) (k : Fin 2048) : lidx_main_v21 (ix3 b i d) k = ix3 b i k := funext fun a => Fin.ext (by match a with | ⟨0, _⟩ => rfl | ⟨1, _⟩ => rfl | ⟨2, _⟩ => rfl)
theorem r21 (b : Fin 4) (i : Fin 2048) (d : Fin 512) (k : Fin 2048) : ridx_main_v21 (ix3 b i d) k = ix3 b k d := funext fun a => Fin.ext (by match a with | ⟨0, _⟩ => rfl | ⟨1, _⟩ => rfl | ⟨2, _⟩ => rfl)
theorem l23 (b : Fin 4) (i : Fin 2048) (e : Fin 512) (k : Fin 512) : lidx_main_v23 (ix3 b i e) k = ix3 b i k := funext fun a => Fin.ext (by match a with | ⟨0, _⟩ => rfl | ⟨1, _⟩ => rfl | ⟨2, _⟩ => rfl)
theorem r23 (b : Fin 4) (i : Fin 2048) (e : Fin 512) (k : Fin 512) : ridx_main_v23 (ix3 b i e) k = ix2 k e := funext fun a => Fin.ext (by match a with | ⟨0, _⟩ => rfl | ⟨1, _⟩ => rfl)
theorem i24 (b : Fin 4) (i : Fin 2048) (k : Fin 512) : idx_main_v24 (ix2 b i) k = ix3 b i k := funext fun a => Fin.ext (by match a with | ⟨0, _⟩ => rfl | ⟨1, _⟩ => rfl | ⟨2, _⟩ => rfl)
theorem i31 (b : Fin 4) (i : Fin 2048) (k : Fin 512) : idx_main_v31 (ix2 b i) k = ix3 b i k := funext fun a => Fin.ext (by match a with | ⟨0, _⟩ => rfl | ⟨1, _⟩ => rfl | ⟨2, _⟩ => rfl)
theorem i28 (b : Fin 4) (i : Fin 2048) (e : Fin 512) : idx_main_v25 (idx_main_v28 (ix3 b i e)) = ix2 b i := funext fun a => Fin.ext (by match a with | ⟨0, _⟩ => rfl | ⟨1, _⟩ => rfl)
theorem i35 (b : Fin 4) (i : Fin 2048) (e : Fin 512) : idx_main_v25 (idx_main_v35 (ix3 b i e)) = ix2 b i := funext fun a => Fin.ext (by match a with | ⟨0, _⟩ => rfl | ⟨1, _⟩ => rfl)
theorem i40 (b : Fin 4) (i : Fin 2048) (e : Fin 512) : idx_main_v32 (idx_main_v40 (ix3 b i e)) = ix2 b i := funext fun a => Fin.ext (by match a with | ⟨0, _⟩ => rfl | ⟨1, _⟩ => rfl)
theorem i43 (b : Fin 4) (i : Fin 2048) (e : Fin 512) : idx_main_v42 (idx_main_v43 (ix3 b i e)) = ix1 e := funext fun a => Fin.ext (by match a with | ⟨0, _⟩ => rfl)
theorem i46 (b : Fin 4) (i : Fin 2048) (e : Fin 512) : idx_main_v45 (idx_main_v46 (ix3 b i e)) = ix1 e := funext fun a => Fin.ext (by match a with | ⟨0, _⟩ => rfl)

/-- The reduced index `(b, i)` with the key coordinate put back is `(b, i, j)`. -/
theorem lift_key (h : S4x2048x2048.Reduces [2] S4x2048) (b : Fin 4) (i : Fin 2048) (j : Fin (S4x2048x2048.size 2)) :
    h.lift (ix2 b i) j = ix3 b i (⟨j.val, j.isLt⟩ : Fin 2048) := by
  funext c; apply Fin.ext
  fin_cases c <;> rfl

/-! ## The stages -/

theorem qproj_eq (b : Fin 4) (i : Fin 2048) (c : Fin 64) :
    val_main_v3 (F := Ideal) x0 x4 (ix3 b i c) = Spec.qproj x0 x4 b i c := by
  rw [val_main_v3_apply, val_main_v0_apply, val_main_v2_apply, val_main_cst_apply]
  simp only [l0, r0]
  rfl

theorem kproj_eq (b : Fin 4) (j : Fin 2048) (c : Fin 64) :
    val_main_v1 (F := Ideal) x1 x5 (ix3 b j c) = Spec.kproj x1 x5 b j c := by
  rw [val_main_v1_apply]
  simp only [l1, r1]
  rfl

theorem masked_eq (b : Fin 4) (i j : Fin 2048) :
    val_main_v7 (F := Ideal) x0 x1 x3 x4 x5 (ix3 b i j) = Spec.masked x0 x1 x3 x4 x5 b i j := by
  rw [val_main_v7_apply, val_main_v6_apply, val_main_v5_apply, val_main_c_apply, val_main_call0_v0_apply,
    val_main_cst_0_apply, val_main_v4_apply]
  simp only [l4, r4, qproj_eq, kproj_eq]
  rfl

theorem rowMax_eq (b : Fin 4) (i : Fin 2048) :
    val_main_v10 (F := Ideal) x0 x1 x3 x4 x5 (ix2 b i) = Spec.rowMax (Spec.masked x0 x1 x3 x4 x5 b i) := by
  rw [val_main_v10_apply, val_main_v9_apply, val_main_cst_2_apply]
  unfold val_main_v8
  rw [Host.reduce_eq_fold_single FloatOps.maximumf _ _ reducesTo_S4x2048x2048_S4x2048_d2 (by decide) h_S_]
  have hf : (val_main_v7 (F := Ideal) x0 x1 x3 x4 x5 ∘ (by decide : S4x2048x2048.Reduces [2] S4x2048).lift (ix2 b i))
      = Spec.masked x0 x1 x3 x4 x5 b i := funext fun j => by
    show val_main_v7 (F := Ideal) x0 x1 x3 x4 x5 (_) = _
    rw [lift_key, masked_eq]
    rfl
  rw [hf]
  show max Spec.negInf ((Finset.univ : Finset (Fin 2048)).fold max Spec.negInf _) = _
  exact max_eq_right ((Finset.le_fold_max _).mpr (Or.inl le_rfl))

/-- The word of 1 is the extended real 1. -/
theorem one_f32 : Ideal.ofBits .f32 0x3F800000#32 = 1 := IdealRules.sign_bit.ideal_onePat .f32

theorem ex_eq (b : Fin 4) (i j : Fin 2048) :
    val_main_v14 (F := Ideal) x0 x1 x3 x4 x5 (ix3 b i j)
      = Ideal.exp (Spec.masked x0 x1 x3 x4 x5 b i j - Spec.rowMax (Spec.masked x0 x1 x3 x4 x5 b i)) := by
  rw [val_main_v14_apply, val_main_v13_apply, val_main_v12_apply, val_main_v11_apply, i12, rowMax_eq, masked_eq]
  rfl

theorem den_eq (b : Fin 4) (i : Fin 2048) :
    val_main_v15 (F := Ideal) x0 x1 x3 x4 x5 (ix2 b i)
      = ∑ j : Fin 2048, Ideal.exp (Spec.masked x0 x1 x3 x4 x5 b i j - Spec.rowMax (Spec.masked x0 x1 x3 x4 x5 b i)) := by
  rw [val_main_v15_apply, val_main_cst_3_apply]
  simp only [i15, ex_eq]
  show Ideal.ofBits .f32 0x00000000#32 + _ = _
  rw [Ideal.ofBits_zero_f32, zero_add]

theorem attn_eq (b : Fin 4) (i j : Fin 2048) :
    val_main_v20 (F := Ideal) x0 x1 x3 x4 x5 (ix3 b i j) = Spec.attn x0 x1 x3 x4 x5 b i j := by
  rw [val_main_v20_apply, val_main_v19_apply, val_main_cst_4_apply, val_main_v18_apply, val_main_v17_apply,
    val_main_v16_apply, i17, den_eq, ex_eq]
  show (Ideal.div _ _) * Ideal.ofBits .f32 0x3F800000#32 = _
  rw [one_f32, mul_one]
  rfl

theorem mix_eq (b : Fin 4) (i : Fin 2048) (d : Fin 512) :
    val_main_v22 (F := Ideal) x0 x1 x2 x3 x4 x5 (ix3 b i d)
      = (∑ j : Fin 2048, Spec.attn x0 x1 x3 x4 x5 b i j * x2 (ix3 b j d)) + x2 (ix3 b i d) := by
  rw [val_main_v22_apply, val_main_v21_apply]
  simp only [l21, r21, attn_eq]
  rfl

theorem lin_eq (b : Fin 4) (i : Fin 2048) (e : Fin 512) :
    val_main_v23 (F := Ideal) x0 x1 x2 x3 x4 x5 x6 (ix3 b i e) = Spec.lin x0 x1 x2 x3 x4 x5 x6 b i e := by
  rw [val_main_v23_apply]
  simp only [l23, r23, mix_eq]
  rfl

theorem mean_eq (b : Fin 4) (i : Fin 2048) (y : S4x2048x1.Idx) (hy : idx_main_v25 y = ix2 b i) :
    val_main_v27 (F := Ideal) x0 x1 x2 x3 x4 x5 x6 y = Spec.rowMean (Spec.lin x0 x1 x2 x3 x4 x5 x6 b i) := by
  rw [val_main_v27_apply, val_main_v25_apply, hy, val_main_v26_apply, val_main_cst_6_apply, val_main_v24_apply,
    val_main_cst_5_apply]
  simp only [i24, lin_eq]
  show Ideal.div (Ideal.ofBits .f32 0x00000000#32 + _) _ = _
  rw [Ideal.ofBits_zero_f32, zero_add]
  rfl

theorem cen_eq (b : Fin 4) (i : Fin 2048) (e : Fin 512) :
    val_main_v29 (F := Ideal) x0 x1 x2 x3 x4 x5 x6 (ix3 b i e)
      = Spec.lin x0 x1 x2 x3 x4 x5 x6 b i e - Spec.rowMean (Spec.lin x0 x1 x2 x3 x4 x5 x6 b i) := by
  rw [val_main_v29_apply, val_main_v28_apply, mean_eq x0 x1 x2 x3 x4 x5 x6 b i _ (i28 b i e), lin_eq]
  rfl

theorem cen'_eq (b : Fin 4) (i : Fin 2048) (e : Fin 512) :
    val_main_v36 (F := Ideal) x0 x1 x2 x3 x4 x5 x6 (ix3 b i e)
      = Spec.lin x0 x1 x2 x3 x4 x5 x6 b i e - Spec.rowMean (Spec.lin x0 x1 x2 x3 x4 x5 x6 b i) := by
  rw [val_main_v36_apply, val_main_v35_apply, mean_eq x0 x1 x2 x3 x4 x5 x6 b i _ (i35 b i e), lin_eq]
  rfl

theorem var_eq (b : Fin 4) (i : Fin 2048) (y : S4x2048x1.Idx) (hy : idx_main_v32 y = ix2 b i) :
    val_main_v34 (F := Ideal) x0 x1 x2 x3 x4 x5 x6 y
      = Spec.rowMean (fun e' => (Spec.lin x0 x1 x2 x3 x4 x5 x6 b i e' - Spec.rowMean (Spec.lin x0 x1 x2 x3 x4 x5 x6 b i))
          * (Spec.lin x0 x1 x2 x3 x4 x5 x6 b i e' - Spec.rowMean (Spec.lin x0 x1 x2 x3 x4 x5 x6 b i))) := by
  rw [val_main_v34_apply, val_main_v32_apply, hy, val_main_v33_apply, val_main_cst_8_apply, val_main_v31_apply,
    val_main_cst_7_apply]
  simp only [i31, val_main_v30_apply, cen_eq]
  show Ideal.div (Ideal.ofBits .f32 0x00000000#32 + _) _ = _
  rw [Ideal.ofBits_zero_f32, zero_add]
  rfl

theorem out_eq (b : Fin 4) (i : Fin 2048) (e : Fin 512) :
    val_main_v47 (F := Ideal) x0 x1 x2 x3 x4 x5 x6 x7 x8 (ix3 b i e) = Spec.out x0 x1 x2 x3 x4 x5 x6 x7 x8 b i e := by
  rw [val_main_v47_apply, val_main_v46_apply, val_main_v45_apply, i46, val_main_v44_apply, val_main_v43_apply,
    val_main_v42_apply, i43, val_main_v41_apply, val_main_v40_apply, val_main_v39_apply, val_main_v38_apply,
    val_main_v37_apply, val_main_cst_9_apply, var_eq x0 x1 x2 x3 x4 x5 x6 b i _ (i40 b i e), cen'_eq]
  rfl

/-! ## The two results as arrays -/

theorem attnArr_eq : val_main_v20 (F := Ideal) x0 x1 x3 x4 x5 = Spec.attnArr x0 x1 x3 x4 x5 := funext fun y => by
  obtain ⟨b, i, j, rfl⟩ : ∃ (b : Fin 4) (i j : Fin 2048), y = ix3 b i j := ⟨y 0, y 1, y 2, eq_ix3 y⟩
  exact attn_eq x0 x1 x3 x4 x5 b i j

theorem outArr_eq : val_main_v47 (F := Ideal) x0 x1 x2 x3 x4 x5 x6 x7 x8 = Spec.outArr x0 x1 x2 x3 x4 x5 x6 x7 x8 :=
  funext fun y => by
    obtain ⟨b, i, e, rfl⟩ : ∃ (b : Fin 4) (i : Fin 2048) (e : Fin 512), y = ix3 b i e := ⟨y 0, y 1, y 2, eq_ix3 y⟩
    exact out_eq x0 x1 x2 x3 x4 x5 x6 x7 x8 b i e

end Cert.ReferenceIdeal.RefSpec

end
-- ==== Proof.lean ====
/-
  A single-head masked attention layer with a residual, a linear layer and a layer norm, computed by a pipelined
  kernel over 4 batches × 8 query tiles, against the same layer written with whole-array operations.

  Over the extended reals both programs compute, for batch `b`, query row `i`, key row `j` and feature `e`,
    attn b i j = softmax_j (mask b i j = 0 ? −10⁹ : ∑ c, ((∑ d, q b i d · wq d c) / 8) · (∑ d, k b j d · wk d c)),
    out b i e  = layerNorm_e (∑ d, ((∑ j, attn b i j · v b j d) + v b i d) · wf d e)
  (`Spec`).  The kernel changes float formats, which changes nothing here; it tiles the query rows, which changes
  nothing in a row-wise computation; and it keeps the key projection of a batch in a scratch buffer across the batch's
  tiles, which is why its run is read point by point (`KernelValue`).  The reference takes `max (−∞) ·` of the row
  maximum and multiplies the weights by 1; both are the identity (`RefSpec`).  No step needs the inputs to be finite:
  both sides are the same sums, quotients, exponentials and maxima of the same entries.
-/
import proofs.«111095_j31765578121671_2_alg».proof.Defs
import proofs.«111095_j31765578121671_2_alg».proof.Proof.Gen.Kernel
import proofs.«111095_j31765578121671_2_alg».proof.Proof.Gen.Kernel.Frame
import proofs.«111095_j31765578121671_2_alg».proof.Proof.Gen.KernelIdeal
import proofs.«111095_j31765578121671_2_alg».proof.Proof.Gen.KernelIdeal.Frame
import proofs.«111095_j31765578121671_2_alg».proof.Proof.Gen.KernelIdeal.Value
import proofs.«111095_j31765578121671_2_alg».proof.Proof.Gen.ReferenceIdeal
import proofs.«111095_j31765578121671_2_alg».proof.Proof.Gen.ReferenceIdeal.Run
import proofs.«111095_j31765578121671_2_alg».proof.Proof.Gen.ReferenceIdeal.Read
import proofs.«111095_j31765578121671_2_alg».proof.Proof.Gen.Pre_finite_inputs
import proofs.«111095_j31765578121671_2_alg».proof.Proof.KernelValue
import proofs.«111095_j31765578121671_2_alg».proof.Proof.RefSpec
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of whole-array operations: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten when the kernel was read over the extended reals. -/
theorem preserves : Cert.preserves_Kernel_KernelIdeal := trivial

/-- Both programs end with the layer's output and attention weights of arguments that agree. -/
theorem algebraic : Cert.algebraic_KernelIdeal_ReferenceIdeal := by
  intro m ρ m' ρ' _ hagree
  refine ⟨fun c => Cert.KernelIdeal.KV.outA m c, fun c => Cert.KernelIdeal.KV.attnA m c, Cert.KernelIdeal.KV.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8⟩ := hagree c
    rw [(h c).1, Cert.ReferenceIdeal.Read.val_main_v47_eq, Cert.ReferenceIdeal.RefSpec.outArr_eq, a0, a1, a2, a3, a4, a5,
      a6, a7, a8]
    rfl
  · obtain ⟨a0, a1, a2, a3, a4, a5, a6, a7, a8⟩ := hagree c
    refine (h c).2.1.trans ((Cert.ReferenceIdeal.Read.val_main_v20_eq _ _ _ _ _).trans ?_)
    rw [Cert.ReferenceIdeal.RefSpec.attnArr_eq, a0, a1, a3, a4, a5]
    rfl

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
